-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x625000 : Shape := ⟨2, ![2, 625000]⟩
abbrev S100000 : Shape := ⟨1, ![100000]⟩
abbrev S128x128 : Shape := ⟨2, ![128, 128]⟩
abbrev S10x128 : Shape := ⟨2, ![10, 128]⟩
abbrev S10 : Shape := ⟨1, ![10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S10x128 : S_.BroadcastsInDim S10x128 (![] : Fin 0 → Fin S10x128.rank)
  reducesTo_S10x128_S_d0_1 : S10x128.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg9 : FVec F S10x128 .f32) (main_arg10 : FVec F S10 .f32) (main_v33 : IVec S_ 1) : IVec S_ 1 :=
  let main_v34 : FVec F S10x128 .f32 := Host.absf main_arg9
  let main_cst_12 : FVec F S_ .f32 := constant S_ .f32 0x7F800000#32
  let main_v35 : FVec F S10x128 .f32 := broadcastInDim S10x128 ![] bcast_S_S10x128 main_cst_12
  let main_v36 : IVec S10x128 1 := cmpf .olt main_v34 main_v35
  let main_c_13 : IVec S_ 1 := constantI S_ 1 1#1
  let main_v37 : IVec S_ 1 := (fun x v => Host.reduce IntOp.andi x v reducesTo_S10x128_S_d0_1 h_S_) main_v36 main_c_13
  let main_v38 : IVec S_ 1 := andi main_v33 main_v37
  let main_v39 : FVec F S10 .f32 := Host.absf main_arg10
  let main_cst_14 : FVec F S_ .f32 := constant S_ .f32 0x7F800000#32
  let main_v40 : FVec F S10 .f32 := broadcastInDim S10 ![] bcast_S_S10 main_cst_14
  let main_v41 : IVec S10 1 := cmpf .olt main_v39 main_v40
  let main_c_15 : IVec S_ 1 := constantI S_ 1 1#1
  let main_v42 : IVec S_ 1 := (fun x v => Host.reduce IntOp.andi x v reducesTo_S10_S_d0 h_S_) main_v41 main_c_15
  let main_v43 : IVec S_ 1 := andi main_v38 main_v42
  main_v43

def fn_part1 {F : FTy → Type} [FloatOps F] (main_arg6 : FVec F S128x128 .f32) (main_arg7 : FVec F S128x128 .f32) (main_arg8 : FVec F S128x128 .f32) (main_arg9 : FVec F S10x128 .f32) (main_arg10 : FVec F S10 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_v33

def fn {F : FTy → Type} [FloatOps F] (main_arg0 : FVec F S100000x128 .f32) (main_arg1 : IVec S2x625000 32) (main_arg2 : IVec S100000 32) (main_arg3 : FVec F S128x128 .f32) (main_arg4 : FVec F S128x128 .f32) (main_arg5 : FVec F S128x128 .f32) (main_arg6 : FVec F S128x128 .f32) (main_arg7 : FVec F S128x128 .f32) (main_arg8 : FVec F S128x128 .f32) (main_arg9 : FVec F S10x128 .f32) (main_arg10 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S100000x128 : Shape := ⟨2, ![100000, 128]⟩
abbrev S2x625000 : Shape := ⟨2, ![2, 625000]⟩
abbrev S100000 : Shape := ⟨1, ![100000]⟩
abbrev S128x128 : Shape := ⟨2, ![128, 128]⟩
abbrev S10x128 : Shape := ⟨2, ![10, 128]⟩
abbrev S10 : Shape := ⟨1, ![10]⟩
abbrev S1x625000 : Shape := ⟨2, ![1, 625000]⟩
abbrev S625000 : Shape := ⟨1, ![625000]⟩
abbrev S5000x128 : Shape := ⟨2, ![5000, 128]⟩
abbrev S_ : Shape := ⟨0, ![]⟩
abbrev S625000x1 : Shape := ⟨2, ![625000, 1]⟩
abbrev S625000x128 : Shape := ⟨2, ![625000, 128]⟩
abbrev S256x128 : Shape := ⟨2, ![256, 128]⟩
abbrev S100000x1 : Shape := ⟨2, ![100000, 1]⟩
abbrev S256 : Shape := ⟨1, ![256]⟩
abbrev S256x1 : Shape := ⟨2, ![256, 1]⟩
abbrev S128x10 : Shape := ⟨2, ![128, 10]⟩
abbrev S256x10 : Shape := ⟨2, ![256, 10]⟩
abbrev S1x10 : Shape := ⟨2, ![1, 10]⟩

abbrev nBuf : Space → Nat
  | .hbm => 90
  | .vmem => 42
  | .smem => 0
  | _ => 0

abbrev bufTy : (tb : Table) → Fin (tcTables nBuf tb) → BufTy
  | .hbm, ⟨0, _⟩ => ⟨S100000x128, .f32⟩
  | .hbm, ⟨1, _⟩ => ⟨S2x625000, .i32⟩
  | .hbm, ⟨2, _⟩ => ⟨S100000, .i32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S128x128, .f32⟩
  | .hbm, ⟨8, _⟩ => ⟨S128x128, .f32⟩
  | .hbm, ⟨9, _⟩ => ⟨S10x128, .f32⟩
  | .hbm, ⟨10, _⟩ => ⟨S10, .f32⟩
  | .hbm, ⟨11, _⟩ => ⟨S1x625000, .i32⟩
  | .hbm, ⟨12, _⟩ => ⟨S625000, .i32⟩
  | .hbm, ⟨13, _⟩ => ⟨S1x625000, .i32⟩
  | .hbm, ⟨14, _⟩ => ⟨S625000, .i32⟩
  | .hbm, ⟨15, _⟩ => ⟨S128x128, .f32⟩
  | .hbm, ⟨16, _⟩ => ⟨S128x128, .f32⟩
  | .hbm, ⟨17, _⟩ => ⟨S100000x128, .f32⟩
  | .hbm, ⟨18, _⟩ => ⟨S100000x128, .f32⟩
  | .hbm, ⟨19, _⟩ => ⟨S_, .i32⟩
  | .hbm, ⟨20, _⟩ => ⟨S625000, .i32⟩
  | .hbm, ⟨21, _⟩ => ⟨S625000, .i1⟩
  | .hbm, ⟨22, _⟩ => ⟨S_, .i32⟩
  | .hbm, ⟨23, _⟩ => ⟨S625000, .i32⟩
  | .hbm, ⟨24, _⟩ => ⟨S625000, .i32⟩
  | .hbm, ⟨25, _⟩ => ⟨S625000, .i32⟩
  | .hbm, ⟨26, _⟩ => ⟨S625000x1, .i32⟩
  | .hbm, ⟨27, _⟩ => ⟨S625000x128, .f32⟩
  | .hbm, ⟨28, _⟩ => ⟨S_, .f32⟩
  | .hbm, ⟨29, _⟩ => ⟨S100000x128, .f32⟩
  | .hbm, ⟨30, _⟩ => ⟨S625000x1, .i32⟩
  | .hbm, ⟨31, _⟩ => ⟨S100000x128, .f32⟩
  | .hbm, ⟨32, _⟩ => ⟨S100000x128, .f32⟩
  | .hbm, ⟨33, _⟩ => ⟨S128x128, .f32⟩
  | .hbm, ⟨34, _⟩ => ⟨S128x128, .f32⟩
  | .hbm, ⟨35, _⟩ => ⟨S100000x128, .f32⟩
  | .hbm, ⟨36, _⟩ => ⟨S100000x128, .f32⟩
  | .hbm, ⟨37, _⟩ => ⟨S_, .i32⟩
  | .hbm, ⟨38, _⟩ => ⟨S625000, .i32⟩
  | .hbm, ⟨39, _⟩ => ⟨S625000, .i1⟩
  | .hbm, ⟨40, _⟩ => ⟨S_, .i32⟩
  | .hbm, ⟨41, _⟩ => ⟨S625000, .i32⟩
  | .hbm, ⟨42, _⟩ => ⟨S625000, .i32⟩
  | .hbm, ⟨43, _⟩ => ⟨S625000, .i32⟩
  | .hbm, ⟨44, _⟩ => ⟨S625000x1, .i32⟩
  | .hbm, ⟨45, _⟩ => ⟨S625000x128, .f32⟩
  | .hbm, ⟨46, _⟩ => ⟨S_, .f32⟩
  | .hbm, ⟨47, _⟩ => ⟨S100000x128, .f32⟩
  | .hbm, ⟨48, _⟩ => ⟨S625000x1, .i32⟩
  | .hbm, ⟨49, _⟩ => ⟨S100000x128, .f32⟩
  | .hbm, ⟨50, _⟩ => ⟨S100000x128, .f32⟩
  | .hbm, ⟨51, _⟩ => ⟨S128x128, .f32⟩
  | .hbm, ⟨52, _⟩ => ⟨S128x128, .f32⟩
  | .hbm, ⟨53, _⟩ => ⟨S100000x128, .f32⟩
  | .hbm, ⟨54, _⟩ => ⟨S100000x128, .f32⟩
  | .hbm, ⟨55, _⟩ => ⟨S_, .i32⟩
  | .hbm, ⟨56, _⟩ => ⟨S625000, .i32⟩
  | .hbm, ⟨57, _⟩ => ⟨S625000, .i1⟩
  | .hbm, ⟨58, _⟩ => ⟨S_, .i32⟩
  | .hbm, ⟨59, _⟩ => ⟨S625000, .i32⟩
  | .hbm, ⟨60, _⟩ => ⟨S625000, .i32⟩
  | .hbm, ⟨61, _⟩ => ⟨S625000, .i32⟩
  | .hbm, ⟨62, _⟩ => ⟨S625000x1, .i32⟩
  | .hbm, ⟨63, _⟩ => ⟨S625000x128, .f32⟩
  | .hbm, ⟨64, _⟩ => ⟨S_, .f32⟩
  | .hbm, ⟨65, _⟩ => ⟨S100000x128, .f32⟩
  | .hbm, ⟨66, _⟩ => ⟨S625000x1, .i32⟩
  | .hbm, ⟨67, _⟩ => ⟨S100000x128, .f32⟩
  | .hbm, ⟨68, _⟩ => ⟨S100000x128, .f32⟩
  | .hbm, ⟨69, _⟩ => ⟨S_, .f32⟩
  | .hbm, ⟨70, _⟩ => ⟨S256x128, .f32⟩
  | .hbm, ⟨71, _⟩ => ⟨S100000x1, .i32⟩
  | .hbm, ⟨72, _⟩ => ⟨S256x128, .f32⟩
  | .hbm, ⟨73, _⟩ => ⟨S_, .f32⟩
  | .hbm, ⟨74, _⟩ => ⟨S100000, .f32⟩
  | .hbm, ⟨75, _⟩ => ⟨S_, .f32⟩
  | .hbm, ⟨76, _⟩ => ⟨S256, .f32⟩
  | .hbm, ⟨77, _⟩ => ⟨S100000x1, .i32⟩
  | .hbm, ⟨78, _⟩ => ⟨S256, .f32⟩
  | .hbm, ⟨79, _⟩ => ⟨S_, .f32⟩
  | .hbm, ⟨80, _⟩ => ⟨S256, .f32⟩
  | .hbm, ⟨81, _⟩ => ⟨S256, .f32⟩
  | .hbm, ⟨82, _⟩ => ⟨S256x1, .f32⟩
  | .hbm, ⟨83, _⟩ => ⟨S256x128, .f32⟩
  | .hbm, ⟨84, _⟩ => ⟨S256x128, .f32⟩
  | .hbm, ⟨85, _⟩ => ⟨S128x10, .f32⟩
  | .hbm, ⟨86, _⟩ => ⟨S256x10, .f32⟩
  | .hbm, ⟨87, _⟩ => ⟨S1x10, .f32⟩
  | .hbm, ⟨88, _⟩ => ⟨S256x10, .f32⟩
  | .hbm, ⟨89, _⟩ => ⟨S256x10, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S128x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S128x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S128x128, .f32⟩
  | .local _ .vmem, ⟨31, _⟩ => ⟨S128x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6_0 : Ref sig .tc := ⟨.hbm, 17, rfl⟩
abbrev main_v6_1 : Ref sig .tc := ⟨.hbm, 18, rfl⟩
abbrev main_c : Ref sig .tc := ⟨.hbm, 19, rfl⟩
abbrev main_v7 : Ref sig .tc := ⟨.hbm, 20, rfl⟩
abbrev main_v8 : Ref sig .tc := ⟨.hbm, 21, rfl⟩
abbrev main_c_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20_0 : Ref sig .tc := ⟨.hbm, 35, rfl⟩
abbrev main_v20_1 : Ref sig .tc := ⟨.hbm, 36, rfl⟩
abbrev main_c_1 : Ref sig .tc := ⟨.hbm, 37, rfl⟩
abbrev main_v21 : Ref sig .tc := ⟨.hbm, 38, rfl⟩
abbrev main_v22 : Ref sig .tc := ⟨.hbm, 39, rfl⟩
abbrev main_c_2 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_3 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34_0 : Ref sig .tc := ⟨.hbm, 53, rfl⟩
abbrev main_v34_1 : Ref sig .tc := ⟨.hbm, 54, rfl⟩
abbrev main_c_4 : Ref sig .tc := ⟨.hbm, 55, rfl⟩
abbrev main_v35 : Ref sig .tc := ⟨.hbm, 56, rfl⟩
abbrev main_v36 : Ref sig .tc := ⟨.hbm, 57, rfl⟩
abbrev main_c_5 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_6 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_7 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_8 : Ref sig .tc := ⟨.hbm, 73, rfl⟩
abbrev main_v49 : Ref sig .tc := ⟨.hbm, 74, rfl⟩
abbrev main_cst_9 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_10 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg4_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg2_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg3_1 : Ref sig .tc := ⟨.vmem, 33, rfl⟩
abbrev cc4_stg4_0 : Ref sig .tc := ⟨.vmem, 34, rfl⟩
abbrev cc4_stg4_1 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg1_1 : Ref sig .tc := ⟨.vmem, 39, rfl⟩
abbrev cc5_stg2_0 : Ref sig .tc := ⟨.vmem, 40, rfl⟩
abbrev cc5_stg2_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19
abbrev cc2_sem4_0 : DmaSem sig := 20
abbrev cc2_sem4_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem2_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem3_0 : DmaSem sig := 32
abbrev cc4_sem3_1 : DmaSem sig := 33
abbrev cc4_sem4_0 : DmaSem sig := 34
abbrev cc4_sem4_1 : DmaSem sig := 35
abbrev cc5_sem0_0 : DmaSem sig := 36
abbrev cc5_sem0_1 : DmaSem sig := 37
abbrev cc5_sem1_0 : DmaSem sig := 38
abbrev cc5_sem1_1 : DmaSem sig := 39
abbrev cc5_sem2_0 : DmaSem sig := 40
abbrev cc5_sem2_1 : DmaSem sig := 41

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S5000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x625000_S1x625000_0_0 : S2x625000.Slices ![0, 0] S1x625000
  shapeCasts_S1x625000_S625000 : S1x625000.ShapeCasts S625000
  slices_S2x625000_S1x625000_1_0 : S2x625000.Slices ![1, 0] S1x625000
  transposes_S128x128_S128x128_1_0 : S128x128.Transposes [1, 0] S128x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S_S625000 : S_.BroadcastsInDim S625000 (![] : Fin 0 → Fin S625000.rank)
  bcast_S625000_S625000x1_0 : S625000.BroadcastsInDim S625000x1 (![0] : Fin 1 → Fin S625000x1.rank)
  bcast_S_S100000x128 : S_.BroadcastsInDim S100000x128 (![] : Fin 0 → Fin S100000x128.rank)
  shapeCasts_S5000x128_S5000x128 : S5000x128.ShapeCasts S5000x128
  bcast_S_S256x128 : S_.BroadcastsInDim S256x128 (![] : Fin 0 → Fin S256x128.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S256 : S_.BroadcastsInDim S256 (![] : Fin 0 → Fin S256.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  transposes_S10x128_S128x10_1_0 : S10x128.Transposes [1, 0] S128x10
  bcast_S10_S1x10_1 : S10.BroadcastsInDim S1x10 (![1] : Fin 1 → Fin S1x10.rank)
  bcast_S1x10_S256x10_0_1 : S1x10.BroadcastsInDim S256x10 (![0, 1] : Fin 2 → Fin S256x10.rank)
  dot_S5000x128_S128x128_S5000x128_1_0_0_1_n_n_wf : DotDims.WF S5000x128 S128x128 S5000x128 [1] [0] [0] [1] [] []
  gather_S100000x128_S625000x1_S625000x128_1_0_n_n_0_1_1128_wf : GatherDims.WF S100000x128 S625000x1 S625000x128 [1] [0] [] [0] [] 1 ![1, 128]
  scatter_S100000x128_S625000x1_S625000x128_1_0_0_1_wf : ScatterDims.WF S100000x128 S625000x1 S625000x128 [1] [0] [0] 1
  scatter_S256x128_S100000x1_S100000x128_1_0_0_1_wf : ScatterDims.WF S256x128 S100000x1 S100000x128 [1] [0] [0] 1
  scatter_S256_S100000x1_S100000_n_0_0_1_wf : ScatterDims.WF S256 S100000x1 S100000 [] [0] [0] 1
  dot_S256x128_S128x10_S256x10_1_0_0_1_n_n_wf : DotDims.WF S256x128 S128x10 S256x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .f32 = 32 ∨ (Rect.block (s := S100000x128) S5000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S100000x128.size a
  hwx2_4 : ∀ i : grid2.Coords, EltTy.bits .f32 = 32 ∨ (Rect.block (s := S100000x128) S5000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x128.size a ≤ S100000x128.size a
  hwx4_3 : ∀ i : grid4.Coords, EltTy.bits .f32 = 32 ∨ (Rect.block (s := S100000x128) S5000x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x128.size a ≤ S100000x128.size a
  hwx4_4 : ∀ i : grid4.Coords, EltTy.bits .f32 = 32 ∨ (Rect.block (s := S100000x128) S5000x128.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S100000x128.size a
  hwx5_1 : ∀ i : grid5.Coords, EltTy.bits .f32 = 32 ∨ (Rect.block (s := S100000x128) S5000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S100000x128.size a
  hwx5_2 : ∀ i : grid5.Coords, EltTy.bits .f32 = 32 ∨ (Rect.block (s := S100000x128) S5000x128.size (cc5_transform_2 i) (hinb5_2 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S625000x1_S625000x128_1_0_n_n_0_1_1128 : GatherDims S100000x128 S625000x1 S625000x128 where
  offsetDims := [1]
  collapsedSliceDims := [0]
  operandBatchingDims := []
  startIndicesBatchingDims := []
  startIndexMap := [0]
  indexVectorDim := 1
  sliceSizes := ![1, 128]
  wf := gather_S100000x128_S625000x1_S625000x128_1_0_n_n_0_1_1128_wf
def scatter_S100000x128_S625000x1_S625000x128_1_0_0_1 : ScatterDims S100000x128 S625000x1 S625000x128 where
  updateWindowDims := [1]
  insertedWindowDims := [0]
  scatterDimsToOperandDims := [0]
  indexVectorDim := 1
  wf := scatter_S100000x128_S625000x1_S625000x128_1_0_0_1_wf
def scatter_S256x128_S100000x1_S100000x128_1_0_0_1 : ScatterDims S256x128 S100000x1 S100000x128 where
  updateWindowDims := [1]
  insertedWindowDims := [0]
  scatterDimsToOperandDims := [0]
  indexVectorDim := 1
  wf := scatter_S256x128_S100000x1_S100000x128_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def dot_S256x128_S128x10_S256x10_1_0_0_1_n_n : DotDims S256x128 S128x10 S256x10 where
  lhsContracting := [1]
  rhsContracting := [0]
  lhsNonContracting := [0]
  rhsNonContracting := [1]
  lhsBatch := []
  rhsBatch := []
  wf := dot_S256x128_S128x10_S256x10_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6_0) S5000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6_1) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v6_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v17) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v18) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v19) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v20_0) S5000x128.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v20_1) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v20_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v30) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v31) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v31) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v32) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v33) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v34_0) S5000x128.size cc4_transform_3 reads4_3 true false 2 stage4_3 sem4_3
    hrank4 hreads4_3 hinb4_3 nbuf4_3 (Memref.isWhole_whole _) hwx4_3 hstage4_3

abbrev win4_4 : Pipeline.Window sig grid4 :=
  Pipeline.Window.ofSpec (Memref.whole main_v34_1) S5000x128.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v34_0) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v44) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v45) S5000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x625000 : Shape := ⟨2, ![2, 625000]⟩
abbrev S100000 : Shape := ⟨1, ![100000]⟩
abbrev S128x128 : Shape := ⟨2, ![128, 128]⟩
abbrev S10x128 : Shape := ⟨2, ![10, 128]⟩
abbrev S10 : Shape := ⟨1, ![10]⟩
abbrev S1x625000 : Shape := ⟨2, ![1, 625000]⟩
abbrev S625000 : Shape := ⟨1, ![625000]⟩
abbrev S_ : Shape := ⟨0, ![]⟩
abbrev S625000x1 : Shape := ⟨2, ![625000, 1]⟩
abbrev S625000x128 : Shape := ⟨2, ![625000, 128]⟩
abbrev S256x128 : Shape := ⟨2, ![256, 128]⟩
abbrev S100000x1 : Shape := ⟨2, ![100000, 1]⟩
abbrev S256 : Shape := ⟨1, ![256]⟩
abbrev S256x1 : Shape := ⟨2, ![256, 1]⟩
abbrev S128x10 : Shape := ⟨2, ![128, 10]⟩
abbrev S256x10 : Shape := ⟨2, ![256, 10]⟩
abbrev S1x10 : Shape := ⟨2, ![1, 10]⟩

abbrev nBuf : Space → Nat
  | .hbm => 99
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x625000, .i32⟩
  | .hbm, ⟨2, _⟩ => ⟨S100000, .i32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S128x128, .f32⟩
  | .hbm, ⟨8, _⟩ => ⟨S128x128, .f32⟩
  | .hbm, ⟨9, _⟩ => ⟨S10x128, .f32⟩
  | .hbm, ⟨10, _⟩ => ⟨S10, .f32⟩
  | .hbm, ⟨11, _⟩ => ⟨S1x625000, .i32⟩
  | .hbm, ⟨12, _⟩ => ⟨S625000, .i32⟩
  | .hbm, ⟨13, _⟩ => ⟨S1x625000, .i32⟩
  | .hbm, ⟨14, _⟩ => ⟨S625000, .i32⟩
  | .hbm, ⟨15, _⟩ => ⟨S128x128, .f32⟩
  | .hbm, ⟨16, _⟩ => ⟨S100000x128, .f32⟩
  | .hbm, ⟨17, _⟩ => ⟨S128x128, .f32⟩
  | .hbm, ⟨18, _⟩ => ⟨S100000x128, .f32⟩
  | .hbm, ⟨19, _⟩ => ⟨S_, .i32⟩
  | .hbm, ⟨20, _⟩ => ⟨S625000, .i32⟩
  | .hbm, ⟨21, _⟩ => ⟨S625000, .i1⟩
  | .hbm, ⟨22, _⟩ => ⟨S_, .i32⟩
  | .hbm, ⟨23, _⟩ => ⟨S625000, .i32⟩
  | .hbm, ⟨24, _⟩ => ⟨S625000, .i32⟩
  | .hbm, ⟨25, _⟩ => ⟨S625000, .i32⟩
  | .hbm, ⟨26, _⟩ => ⟨S625000x1, .i32⟩
  | .hbm, ⟨27, _⟩ => ⟨S625000x128, .f32⟩
  | .hbm, ⟨28, _⟩ => ⟨S_, .f32⟩
  | .hbm, ⟨29, _⟩ => ⟨S100000x128, .f32⟩
  | .hbm, ⟨30, _⟩ => ⟨S625000x1, .i32⟩
  | .hbm, ⟨31, _⟩ => ⟨S100000x128, .f32⟩
  | .hbm, ⟨32, _⟩ => ⟨S100000x128, .f32⟩
  | .hbm, ⟨33, _⟩ => ⟨S_, .f32⟩
  | .hbm, ⟨34, _⟩ => ⟨S100000x128, .f32⟩
  | .hbm, ⟨35, _⟩ => ⟨S100000x128, .f32⟩
  | .hbm, ⟨36, _⟩ => ⟨S128x128, .f32⟩
  | .hbm, ⟨37, _⟩ => ⟨S100000x128, .f32⟩
  | .hbm, ⟨38, _⟩ => ⟨S128x128, .f32⟩
  | .hbm, ⟨39, _⟩ => ⟨S100000x128, .f32⟩
  | .hbm, ⟨40, _⟩ => ⟨S_, .i32⟩
  | .hbm, ⟨41, _⟩ => ⟨S625000, .i32⟩
  | .hbm, ⟨42, _⟩ => ⟨S625000, .i1⟩
  | .hbm, ⟨43, _⟩ => ⟨S_, .i32⟩
  | .hbm, ⟨44, _⟩ => ⟨S625000, .i32⟩
  | .hbm, ⟨45, _⟩ => ⟨S625000, .i32⟩
  | .hbm, ⟨46, _⟩ => ⟨S625000, .i32⟩
  | .hbm, ⟨47, _⟩ => ⟨S625000x1, .i32⟩
  | .hbm, ⟨48, _⟩ => ⟨S625000x128, .f32⟩
  | .hbm, ⟨49, _⟩ => ⟨S_, .f32⟩
  | .hbm, ⟨50, _⟩ => ⟨S100000x128, .f32⟩
  | .hbm, ⟨51, _⟩ => ⟨S625000x1, .i32⟩
  | .hbm, ⟨52, _⟩ => ⟨S100000x128, .f32⟩
  | .hbm, ⟨53, _⟩ => ⟨S100000x128, .f32⟩
  | .hbm, ⟨54, _⟩ => ⟨S_, .f32⟩
  | .hbm, ⟨55, _⟩ => ⟨S100000x128, .f32⟩
  | .hbm, ⟨56, _⟩ => ⟨S100000x128, .f32⟩
  | .hbm, ⟨57, _⟩ => ⟨S128x128, .f32⟩
  | .hbm, ⟨58, _⟩ => ⟨S100000x128, .f32⟩
  | .hbm, ⟨59, _⟩ => ⟨S128x128, .f32⟩
  | .hbm, ⟨60, _⟩ => ⟨S100000x128, .f32⟩
  | .hbm, ⟨61, _⟩ => ⟨S_, .i32⟩
  | .hbm, ⟨62, _⟩ => ⟨S625000, .i32⟩
  | .hbm, ⟨63, _⟩ => ⟨S625000, .i1⟩
  | .hbm, ⟨64, _⟩ => ⟨S_, .i32⟩
  | .hbm, ⟨65, _⟩ => ⟨S625000, .i32⟩
  | .hbm, ⟨66, _⟩ => ⟨S625000, .i32⟩
  | .hbm, ⟨67, _⟩ => ⟨S625000, .i32⟩
  | .hbm, ⟨68, _⟩ => ⟨S625000x1, .i32⟩
  | .hbm, ⟨69, _⟩ => ⟨S625000x128, .f32⟩
  | .hbm, ⟨70, _⟩ => ⟨S_, .f32⟩
  | .hbm, ⟨71, _⟩ => ⟨S100000x128, .f32⟩
  | .hbm, ⟨72, _⟩ => ⟨S625000x1, .i32⟩
  | .hbm, ⟨73, _⟩ => ⟨S100000x128, .f32⟩
  | .hbm, ⟨74, _⟩ => ⟨S100000x128, .f32⟩
  | .hbm, ⟨75, _⟩ => ⟨S_, .f32⟩
  | .hbm, ⟨76, _⟩ => ⟨S100000x128, .f32⟩
  | .hbm, ⟨77, _⟩ => ⟨S100000x128, .f32⟩
  | .hbm, ⟨78, _⟩ => ⟨S_, .f32⟩
  | .hbm, ⟨79, _⟩ => ⟨S256x128, .f32⟩
  | .hbm, ⟨80, _⟩ => ⟨S100000x1, .i32⟩
  | .hbm, ⟨81, _⟩ => ⟨S256x128, .f32⟩
  | .hbm, ⟨82, _⟩ => ⟨S_, .f32⟩
  | .hbm, ⟨83, _⟩ => ⟨S100000, .f32⟩
  | .hbm, ⟨84, _⟩ => ⟨S_, .f32⟩
  | .hbm, ⟨85, _⟩ => ⟨S256, .f32⟩
  | .hbm, ⟨86, _⟩ => ⟨S100000x1, .i32⟩
  | .hbm, ⟨87, _⟩ => ⟨S256, .f32⟩
  | .hbm, ⟨88, _⟩ => ⟨S_, .f32⟩
  | .hbm, ⟨89, _⟩ => ⟨S256, .f32⟩
  | .hbm, ⟨90, _⟩ => ⟨S256, .f32⟩
  | .hbm, ⟨91, _⟩ => ⟨S256x1, .f32⟩
  | .hbm, ⟨92, _⟩ => ⟨S256x128, .f32⟩
  | .hbm, ⟨93, _⟩ => ⟨S256x128, .f32⟩
  | .hbm, ⟨94, _⟩ => ⟨S128x10, .f32⟩
  | .hbm, ⟨95, _⟩ => ⟨S256x10, .f32⟩
  | .hbm, ⟨96, _⟩ => ⟨S1x10, .f32⟩
  | .hbm, ⟨97, _⟩ => ⟨S256x10, .f32⟩
  | .hbm, ⟨98, _⟩ => ⟨S256x10, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c : Ref sig .tc := ⟨.hbm, 19, rfl⟩
abbrev main_v8 : Ref sig .tc := ⟨.hbm, 20, rfl⟩
abbrev main_v9 : Ref sig .tc := ⟨.hbm, 21, rfl⟩
abbrev main_c_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_call0_cst : Ref sig .tc := ⟨.hbm, 33, rfl⟩
abbrev main_call0_v0 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_1 : Ref sig .tc := ⟨.hbm, 40, rfl⟩
abbrev main_v24 : Ref sig .tc := ⟨.hbm, 41, rfl⟩
abbrev main_v25 : Ref sig .tc := ⟨.hbm, 42, rfl⟩
abbrev main_c_2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_3 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_call1_cst : Ref sig .tc := ⟨.hbm, 54, rfl⟩
abbrev main_call1_v0 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_c_4 : Ref sig .tc := ⟨.hbm, 61, rfl⟩
abbrev main_v40 : Ref sig .tc := ⟨.hbm, 62, rfl⟩
abbrev main_v41 : Ref sig .tc := ⟨.hbm, 63, rfl⟩
abbrev main_c_5 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_6 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_call2_cst : Ref sig .tc := ⟨.hbm, 75, rfl⟩
abbrev main_call2_v0 : Ref sig .tc := ⟨.hbm, 76, rfl⟩
abbrev main_v51 : Ref sig .tc := ⟨.hbm, 77, rfl⟩
abbrev main_cst_7 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_8 : Ref sig .tc := ⟨.hbm, 82, rfl⟩
abbrev main_v55 : Ref sig .tc := ⟨.hbm, 83, rfl⟩
abbrev main_cst_9 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_10 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩

abbrev nD : Nat := 1
abbrev τ : Topo := Topo.v7x

variable {F : FTy → Type} [FloatOps F]

class Facts₀ : Prop where
  slices_S2x625000_S1x625000_0_0 : S2x625000.Slices ![0, 0] S1x625000
  shapeCasts_S1x625000_S625000 : S1x625000.ShapeCasts S625000
  slices_S2x625000_S1x625000_1_0 : S2x625000.Slices ![1, 0] S1x625000
  transposes_S128x128_S128x128_1_0 : S128x128.Transposes [1, 0] S128x128
  bcast_S_S625000 : S_.BroadcastsInDim S625000 (![] : Fin 0 → Fin S625000.rank)
  bcast_S625000_S625000x1_0 : S625000.BroadcastsInDim S625000x1 (![0] : Fin 1 → Fin S625000x1.rank)
  bcast_S_S100000x128 : S_.BroadcastsInDim S100000x128 (![] : Fin 0 → Fin S100000x128.rank)
  bcast_S_S256x128 : S_.BroadcastsInDim S256x128 (![] : Fin 0 → Fin S256x128.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S256 : S_.BroadcastsInDim S256 (![] : Fin 0 → Fin S256.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  transposes_S10x128_S128x10_1_0 : S10x128.Transposes [1, 0] S128x10
  bcast_S10_S1x10_1 : S10.BroadcastsInDim S1x10 (![1] : Fin 1 → Fin S1x10.rank)
  bcast_S1x10_S256x10_0_1 : S1x10.BroadcastsInDim S256x10 (![0, 1] : Fin 2 → Fin S256x10.rank)
  dot_S100000x128_S128x128_S100000x128_1_0_0_1_n_n_wf : DotDims.WF S100000x128 S128x128 S100000x128 [1] [0] [0] [1] [] []
  gather_S100000x128_S625000x1_S625000x128_1_0_n_n_0_1_1128_wf : GatherDims.WF S100000x128 S625000x1 S625000x128 [1] [0] [] [0] [] 1 ![1, 128]
  scatter_S100000x128_S625000x1_S625000x128_1_0_0_1_wf : ScatterDims.WF S100000x128 S625000x1 S625000x128 [1] [0] [0] 1
  scatter_S256x128_S100000x1_S100000x128_1_0_0_1_wf : ScatterDims.WF S256x128 S100000x1 S100000x128 [1] [0] [0] 1
  scatter_S256_S100000x1_S100000_n_0_0_1_wf : ScatterDims.WF S256 S100000x1 S100000 [] [0] [0] 1
  dot_S256x128_S128x10_S256x10_1_0_0_1_n_n_wf : DotDims.WF S256x128 S128x10 S256x10 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S625000x1_S625000x128_1_0_n_n_0_1_1128 : GatherDims S100000x128 S625000x1 S625000x128 where
  offsetDims := [1]
  collapsedSliceDims := [0]
  operandBatchingDims := []
  startIndicesBatchingDims := []
  startIndexMap := [0]
  indexVectorDim := 1
  sliceSizes := ![1, 128]
  wf := gather_S100000x128_S625000x1_S625000x128_1_0_n_n_0_1_1128_wf
def scatter_S100000x128_S625000x1_S625000x128_1_0_0_1 : ScatterDims S100000x128 S625000x1 S625000x128 where
  updateWindowDims := [1]
  insertedWindowDims := [0]
  scatterDimsToOperandDims := [0]
  indexVectorDim := 1
  wf := scatter_S100000x128_S625000x1_S625000x128_1_0_0_1_wf
def scatter_S256x128_S100000x1_S100000x128_1_0_0_1 : ScatterDims S256x128 S100000x1 S100000x128 where
  updateWindowDims := [1]
  insertedWindowDims := [0]
  scatterDimsToOperandDims := [0]
  indexVectorDim := 1
  wf := scatter_S256x128_S100000x1_S100000x128_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def dot_S256x128_S128x10_S256x10_1_0_0_1_n_n : DotDims S256x128 S128x10 S256x10 where
  lhsContracting := [1]
  rhsContracting := [0]
  lhsNonContracting := [0]
  rhsNonContracting := [1]
  lhsBatch := []
  rhsBatch := []
  wf := dot_S256x128_S128x10_S256x10_1_0_0_1_n_n_wf

class Facts : Prop extends Facts₀ where

variable [Facts]
-- ==== Proof.KRun.lean ====
/-
  The kernel program's run with its result named. Every weakly fair execution of @main terminates without a fault;
  the result buffer then holds what the last stretch of host operations leaves there, read off the fold of the
  buffer contents through @main's thirteen segments (host operations and the six calls alternating), and the
  eleven argument arrays are as launched.
-/
import proofs.«119247_j37409165149000_1_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run_result : θ_run defs (onTc (τ := τ) (main (F := F))) ⟨m, fun _ => 0, ρ⟩ (fun r => ∀ c : Dev nD,
      r.2.mem ((c.tc : Thread nD τ).loc main_v62) = W13 m ρ c (Proc.devRef .tc main_v62)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v62 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c),
       (h c _ (mem_uc main_arg10 (by decide))).trans (W13_main_arg10 m ρ c)⟩)

end Cert.KernelIdeal.Whole

end
-- ==== Proof.Net.lean ====
/-
  The network both programs compute, as one composition of whole-array operations: three rounds of message
  passing over a fixed edge list, then a mean over each graph's nodes and a linear read-out.

  One round takes node features h : [100000, 128] and two weight matrices (already transposed to [in, out]):
    proj h w        = h · w                                    (a plain matrix product)
    aggr p row col  = the sum, into row r, of the rows p[col e] over the edges e with row e = r
                      (a gather of rows followed by a scatter-add into zeros; a negative col is wrapped by +100000)
    layer           = max (proj h w1 + aggr (proj h w2) row col, 0)
  and the read-out divides the per-graph sums of the last features by max (node count, 1), multiplies by the
  transposed classifier matrix and adds the bias.
-/
import proofs.«119247_j37409165149000_1_alg».proof.Proof.Gen.KernelIdeal
import Idealize.ShloMosaic.PureOps.Ideal

noncomputable section

namespace Cert.KernelIdeal.Net

open Idealize.ShloMosaic Cert.KernelIdeal Cert.KernelIdeal.Facts₀ Cert.KernelIdeal.Facts

variable {F : FTy → Type} [FloatOps F]

/-- Row `k` of the edge list as a vector of 625000 node numbers. -/
def rowVec (ei : (⟨S2x625000, .i32⟩ : BufTy).Contents (Elt F)) : (⟨S625000, .i32⟩ : BufTy).Contents (Elt F) :=
  shapeCast S625000 (extractStridedSlice S1x625000 ![0, 0] ei slices_S2x625000_S1x625000_0_0) shapeCasts_S1x625000_S625000

def colVec (ei : (⟨S2x625000, .i32⟩ : BufTy).Contents (Elt F)) : (⟨S625000, .i32⟩ : BufTy).Contents (Elt F) :=
  shapeCast S625000 (extractStridedSlice S1x625000 ![1, 0] ei slices_S2x625000_S1x625000_1_0) shapeCasts_S1x625000_S625000

/-- A weight matrix stored [out, in], turned to [in, out]. -/
def wT (w : (⟨S128x128, .f32⟩ : BufTy).Contents (Elt F)) : (⟨S128x128, .f32⟩ : BufTy).Contents (Elt F) :=
  transpose S128x128 [1, 0] w transposes_S128x128_S128x128_1_0

/-- The plain product of the node features with a [in, out] weight matrix. -/
def proj (h : (⟨S100000x128, .f32⟩ : BufTy).Contents (Elt F)) (w : (⟨S128x128, .f32⟩ : BufTy).Contents (Elt F)) :
    (⟨S100000x128, .f32⟩ : BufTy).Contents (Elt F) :=
  Host.dotGeneral (DotDims.plain 100000 128 128) none h w

/-- Neighbour aggregation: row `r` of the result is the sum of the rows `p[col e]` over the edges `e` with `row e = r`. -/
def aggr (p : (⟨S100000x128, .f32⟩ : BufTy).Contents (Elt F)) (row col : (⟨S625000, .i32⟩ : BufTy).Contents (Elt F)) :
    (⟨S100000x128, .f32⟩ : BufTy).Contents (Elt F) :=
  Host.scatterAdd scatter_S100000x128_S625000x1_S625000x128_1_0_0_1
    (broadcastInDim S100000x128 ![] bcast_S_S100000x128 (constant S_ .f32 0x00000000#32))
    (broadcastInDim S625000x1 ![0] bcast_S625000_S625000x1_0 row)
    (Host.gather gather_S100000x128_S625000x1_S625000x128_1_0_n_n_0_1_1128 p
      (broadcastInDim S625000x1 ![0] bcast_S625000_S625000x1_0
        (select (cmpi .slt col (broadcastInDim S625000 ![] bcast_S_S625000 (constantI S_ 32 0#32)))
          (addi col (broadcastInDim S625000 ![] bcast_S_S625000 (constantI S_ 32 100000#32))) col)))

/-- The self term plus the aggregated neighbour term, clamped below at zero. -/
def combine (a b : (⟨S100000x128, .f32⟩ : BufTy).Contents (Elt F)) : (⟨S100000x128, .f32⟩ : BufTy).Contents (Elt F) :=
  maximumf (addf a b) (broadcastInDim S100000x128 ![] bcast_S_S100000x128 (constant S_ .f32 0x00000000#32))

/-- One round of message passing. -/
def layer (h : (⟨S100000x128, .f32⟩ : BufTy).Contents (Elt F)) (row col : (⟨S625000, .i32⟩ : BufTy).Contents (Elt F))
    (w1 w2 : (⟨S128x128, .f32⟩ : BufTy).Contents (Elt F)) : (⟨S100000x128, .f32⟩ : BufTy).Contents (Elt F) :=
  combine (proj h w1) (aggr (proj h w2) row col)

/-- Mean of the node features over each graph, then the linear read-out. -/
def pool (h : (⟨S100000x128, .f32⟩ : BufTy).Contents (Elt F)) (batch : (⟨S100000, .i32⟩ : BufTy).Contents (Elt F))
    (wc : (⟨S10x128, .f32⟩ : BufTy).Contents (Elt F)) (bc : (⟨S10, .f32⟩ : BufTy).Contents (Elt F)) :
    (⟨S256x10, .f32⟩ : BufTy).Contents (Elt F) :=
  addf
    (Host.dotGeneral dot_S256x128_S128x10_S256x10_1_0_0_1_n_n none
      (Host.divf
        (Host.scatterAdd scatter_S256x128_S100000x1_S100000x128_1_0_0_1
          (broadcastInDim S256x128 ![] bcast_S_S256x128 (constant S_ .f32 0x00000000#32))
          (broadcastInDim S100000x1 ![0] bcast_S100000_S100000x1_0 batch) h)
        (broadcastInDim S256x128 ![0, 1] bcast_S256x1_S256x128_0_1
          (broadcastInDim S256x1 ![0] bcast_S256_S256x1_0
            (maximumf
              (Host.scatterAdd scatter_S256_S100000x1_S100000_n_0_0_1
                (broadcastInDim S256 ![] bcast_S_S256 (constant S_ .f32 0x00000000#32))
                (broadcastInDim S100000x1 ![0] bcast_S100000_S100000x1_0 batch)
                (broadcastInDim S100000 ![] bcast_S_S100000 (constant S_ .f32 0x3F800000#32)))
              (broadcastInDim S256 ![] bcast_S_S256 (constant S_ .f32 0x3F800000#32))))))
      (transpose S128x10 [1, 0] wc transposes_S10x128_S128x10_1_0))
    (broadcastInDim S256x10 ![0, 1] bcast_S1x10_S256x10_0_1 (broadcastInDim S1x10 ![1] bcast_S10_S1x10_1 bc))

/-- The whole network. -/
def net (x : (⟨S100000x128, .f32⟩ : BufTy).Contents (Elt F)) (ei : (⟨S2x625000, .i32⟩ : BufTy).Contents (Elt F))
    (batch : (⟨S100000, .i32⟩ : BufTy).Contents (Elt F))
    (w10 w20 w11 w21 w12 w22 : (⟨S128x128, .f32⟩ : BufTy).Contents (Elt F))
    (wc : (⟨S10x128, .f32⟩ : BufTy).Contents (Elt F)) (bc : (⟨S10, .f32⟩ : BufTy).Contents (Elt F)) :
    (⟨S256x10, .f32⟩ : BufTy).Contents (Elt F) :=
  pool (layer (layer (layer x (rowVec ei) (colVec ei) (wT w10) (wT w20)) (rowVec ei) (colVec ei) (wT w11) (wT w21))
    (rowVec ei) (colVec ei) (wT w12) (wT w22)) batch wc bc

end Cert.KernelIdeal.Net

end
-- ==== Proof.KHost.lean ====
/-
  What each stretch of host operations between the calls leaves in the buffers the network's value passes through,
  as a function of the contents `V` it starts from: the edge list's two rows and the transposed weights before the
  first call; the neighbour aggregation (gather of rows, scatter-add into zeros) after each projection call; the
  next layer's transposed weights after each combine call; and the read-out after the last call. A buffer that a
  stretch does not write keeps its contents.
-/
import proofs.«119247_j37409165149000_1_alg».proof.Proof.Gen.KernelIdeal.Launch
import proofs.«119247_j37409165149000_1_alg».proof.Proof.Net
import Idealize.ShloMosaic.Lib.StableHlo.Run

set_option maxRecDepth 16384

noncomputable section

namespace Cert.KernelIdeal.HostOps

open Idealize.ShloMosaic Idealize.ShloMosaic.TcCoe Idealize.SL.Sem Idealize.ShloMosaic.StableHlo
open Cert.KernelIdeal Cert.KernelIdeal.Gen

variable {F : FTy → Type} [FloatOps F] (V : Valuation τ sig (Elt F))

/-- What the first stretch writes. -/
abbrev early : List (Ref sig .tc) := [main_v0, main_v1, main_v2, main_v3, main_v4, main_v5]

/-- Every buffer written after the first stretch — by a later stretch of host operations or as a call's result —
    together with the arrays the calls read through their windows. -/
abbrev late : List (Ref sig .tc) :=
  [main_c, main_v7, main_v8, main_c_0, main_v9, main_v10, main_v11, main_v12, main_v13, main_cst, main_v14, main_v15, main_v16,
   main_v18, main_v19,
   main_c_1, main_v21, main_v22, main_c_2, main_v23, main_v24, main_v25, main_v26, main_v27, main_cst_3, main_v28, main_v29, main_v30,
   main_v32, main_v33,
   main_c_4, main_v35, main_v36, main_c_5, main_v37, main_v38, main_v39, main_v40, main_v41, main_cst_6, main_v42, main_v43, main_v44,
   main_cst_7, main_v46, main_v47, main_v48, main_cst_8, main_v49, main_cst_9, main_v50, main_v51, main_v52, main_cst_10, main_v53, main_v54, main_v55, main_v56, main_v57, main_v58, main_v59, main_v60, main_v61, main_v62,
   main_v6_0, main_v6_1, main_v17, main_v20_0, main_v20_1, main_v31, main_v34_0, main_v34_1, main_v45,
   main_arg0, main_v4, main_v5]

theorem host0_writes : (hostOps0 : List (HloOp τ sig (Elt F))).Forall fun op => op.writes ⊆ (early.map (Proc.devRef (τ := τ) .tc)).toFinset := by
  simp only [hostOps0, List.Forall, nullary_writes, unary_writes, binary_writes, ternary_writes, reshape_writes,
    Finset.singleton_subset_iff, List.mem_toFinset]
  repeat' apply And.intro
  all_goals exact List.mem_map_of_mem (by decide)
theorem host1_writes : (hostOps1 : List (HloOp τ sig (Elt F))).Forall fun op => op.writes ⊆ (late.map (Proc.devRef (τ := τ) .tc)).toFinset := by
  simp only [hostOps1, List.Forall, nullary_writes, unary_writes, binary_writes, ternary_writes, reshape_writes,
    Finset.singleton_subset_iff, List.mem_toFinset]
  repeat' apply And.intro
  all_goals exact List.mem_map_of_mem (by decide)
theorem host2_writes : (hostOps2 : List (HloOp τ sig (Elt F))).Forall fun op => op.writes ⊆ (late.map (Proc.devRef (τ := τ) .tc)).toFinset := by
  simp only [hostOps2, List.Forall, nullary_writes, unary_writes, binary_writes, ternary_writes, reshape_writes,
    Finset.singleton_subset_iff, List.mem_toFinset]
  repeat' apply And.intro
  all_goals exact List.mem_map_of_mem (by decide)
theorem host3_writes : (hostOps3 : List (HloOp τ sig (Elt F))).Forall fun op => op.writes ⊆ (late.map (Proc.devRef (τ := τ) .tc)).toFinset := by
  simp only [hostOps3, List.Forall, nullary_writes, unary_writes, binary_writes, ternary_writes, reshape_writes,
    Finset.singleton_subset_iff, List.mem_toFinset]
  repeat' apply And.intro
  all_goals exact List.mem_map_of_mem (by decide)
theorem host4_writes : (hostOps4 : List (HloOp τ sig (Elt F))).Forall fun op => op.writes ⊆ (late.map (Proc.devRef (τ := τ) .tc)).toFinset := by
  simp only [hostOps4, List.Forall, nullary_writes, unary_writes, binary_writes, ternary_writes, reshape_writes,
    Finset.singleton_subset_iff, List.mem_toFinset]
  repeat' apply And.intro
  all_goals exact List.mem_map_of_mem (by decide)
theorem host5_writes : (hostOps5 : List (HloOp τ sig (Elt F))).Forall fun op => op.writes ⊆ (late.map (Proc.devRef (τ := τ) .tc)).toFinset := by
  simp only [hostOps5, List.Forall, nullary_writes, unary_writes, binary_writes, ternary_writes, reshape_writes,
    Finset.singleton_subset_iff, List.mem_toFinset]
  repeat' apply And.intro
  all_goals exact List.mem_map_of_mem (by decide)
theorem host6_writes : (hostOps6 : List (HloOp τ sig (Elt F))).Forall fun op => op.writes ⊆ (late.map (Proc.devRef (τ := τ) .tc)).toFinset := by
  simp only [hostOps6, List.Forall, nullary_writes, unary_writes, binary_writes, ternary_writes, reshape_writes,
    Finset.singleton_subset_iff, List.mem_toFinset]
  repeat' apply And.intro
  all_goals exact List.mem_map_of_mem (by decide)

/-! ## Buffers a stretch leaves alone -/

theorem host0_keep (b : Ref sig .tc) (hb : b ∉ early) : after hostOps0 V (Proc.devRef .tc b) = V (Proc.devRef .tc b) :=
  after_of_writes_sub hostOps0 V host0_writes hb
theorem host1_keep (b : Ref sig .tc) (hb : b ∉ late) : after hostOps1 V (Proc.devRef .tc b) = V (Proc.devRef .tc b) :=
  after_of_writes_sub hostOps1 V host1_writes hb
theorem host2_keep (b : Ref sig .tc) (hb : b ∉ late) : after hostOps2 V (Proc.devRef .tc b) = V (Proc.devRef .tc b) :=
  after_of_writes_sub hostOps2 V host2_writes hb
theorem host3_keep (b : Ref sig .tc) (hb : b ∉ late) : after hostOps3 V (Proc.devRef .tc b) = V (Proc.devRef .tc b) :=
  after_of_writes_sub hostOps3 V host3_writes hb
theorem host4_keep (b : Ref sig .tc) (hb : b ∉ late) : after hostOps4 V (Proc.devRef .tc b) = V (Proc.devRef .tc b) :=
  after_of_writes_sub hostOps4 V host4_writes hb
theorem host5_keep (b : Ref sig .tc) (hb : b ∉ late) : after hostOps5 V (Proc.devRef .tc b) = V (Proc.devRef .tc b) :=
  after_of_writes_sub hostOps5 V host5_writes hb
theorem host6_keep (b : Ref sig .tc) (hb : b ∉ late) : after hostOps6 V (Proc.devRef .tc b) = V (Proc.devRef .tc b) :=
  after_of_writes_sub hostOps6 V host6_writes hb

/-- A call's self-term result passes the aggregation stretch untouched. -/
theorem host1_v6_0 : after hostOps1 V (Proc.devRef .tc main_v6_0) = V (Proc.devRef .tc main_v6_0) := by
  dsimp only [hostOps1]; after_results <;> rfl
theorem host3_v20_0 : after hostOps3 V (Proc.devRef .tc main_v20_0) = V (Proc.devRef .tc main_v20_0) := by
  dsimp only [hostOps3]; after_results <;> rfl
theorem host5_v34_0 : after hostOps5 V (Proc.devRef .tc main_v34_0) = V (Proc.devRef .tc main_v34_0) := by
  dsimp only [hostOps5]; after_results <;> rfl
/-- A layer's output passes the transposition of the next layer's weights untouched. -/
theorem host2_v17 : after hostOps2 V (Proc.devRef .tc main_v17) = V (Proc.devRef .tc main_v17) := by
  dsimp only [hostOps2]; after_results <;> rfl
theorem host4_v31 : after hostOps4 V (Proc.devRef .tc main_v31) = V (Proc.devRef .tc main_v31) := by
  dsimp only [hostOps4]; after_results <;> rfl

/-! ## What the stretches compute -/

theorem host0_v1 : after hostOps0 V (Proc.devRef .tc main_v1) = Net.rowVec (V (Proc.devRef .tc main_arg1)) := by
  dsimp only [hostOps0]; after_results <;> rfl
theorem host0_v3 : after hostOps0 V (Proc.devRef .tc main_v3) = Net.colVec (V (Proc.devRef .tc main_arg1)) := by
  dsimp only [hostOps0]; after_results <;> rfl
theorem host0_v4 : after hostOps0 V (Proc.devRef .tc main_v4) = Net.wT (V (Proc.devRef .tc main_arg3)) := by
  dsimp only [hostOps0]; after_results <;> rfl
theorem host0_v5 : after hostOps0 V (Proc.devRef .tc main_v5) = Net.wT (V (Proc.devRef .tc main_arg4)) := by
  dsimp only [hostOps0]; after_results <;> rfl

set_option maxHeartbeats 2000000 in
theorem host1_v16 : after hostOps1 V (Proc.devRef .tc main_v16)
    = Net.aggr (V (Proc.devRef .tc main_v6_1)) (V (Proc.devRef .tc main_v1)) (V (Proc.devRef .tc main_v3)) := by
  dsimp only [hostOps1]; after_results_simp <;> rfl
set_option maxHeartbeats 2000000 in
theorem host3_v30 : after hostOps3 V (Proc.devRef .tc main_v30)
    = Net.aggr (V (Proc.devRef .tc main_v20_1)) (V (Proc.devRef .tc main_v1)) (V (Proc.devRef .tc main_v3)) := by
  dsimp only [hostOps3]; after_results_simp <;> rfl
set_option maxHeartbeats 2000000 in
theorem host5_v44 : after hostOps5 V (Proc.devRef .tc main_v44)
    = Net.aggr (V (Proc.devRef .tc main_v34_1)) (V (Proc.devRef .tc main_v1)) (V (Proc.devRef .tc main_v3)) := by
  dsimp only [hostOps5]; after_results_simp <;> rfl

theorem host2_v18 : after hostOps2 V (Proc.devRef .tc main_v18) = Net.wT (V (Proc.devRef .tc main_arg5)) := by
  dsimp only [hostOps2]; after_results <;> rfl
theorem host2_v19 : after hostOps2 V (Proc.devRef .tc main_v19) = Net.wT (V (Proc.devRef .tc main_arg6)) := by
  dsimp only [hostOps2]; after_results <;> rfl
theorem host4_v32 : after hostOps4 V (Proc.devRef .tc main_v32) = Net.wT (V (Proc.devRef .tc main_arg7)) := by
  dsimp only [hostOps4]; after_results <;> rfl
theorem host4_v33 : after hostOps4 V (Proc.devRef .tc main_v33) = Net.wT (V (Proc.devRef .tc main_arg8)) := by
  dsimp only [hostOps4]; after_results <;> rfl

set_option maxHeartbeats 2000000 in
theorem host6_v62 : after hostOps6 V (Proc.devRef .tc main_v62)
    = Net.pool (V (Proc.devRef .tc main_v45)) (V (Proc.devRef .tc main_arg2)) (V (Proc.devRef .tc main_arg9)) (V (Proc.devRef .tc main_arg10)) := by
  dsimp only [hostOps6]; after_results_simp <;> rfl

end Cert.KernelIdeal.HostOps

end
-- ==== Proof.LibPlainDot.lean ====
/-
  A plain matrix product M×K by K×N into a zero accumulator, read at an entry over the extended reals: entry (p, q)
  is the sum over c of lhs (p, c) · rhs (c, q). The contraction index, a one-axis multi-index, is re-indexed to its
  one coordinate.
-/
import Idealize.ShloMosaic.Lib.ValueIdx
import Idealize.ShloMosaic.PureOps.Ideal.Laws

namespace Cert.LibPlainDot

open Idealize.ShloMosaic Idealize.ShloMosaic.ValueIdx

/-- The left operand's index at result entry `(p, q)` and contraction coordinate `c` is `(p, c)`. -/
theorem plain_lhsIdx (M K N : ℕ) (p : Fin M) (q : Fin N) (c : Fin K) :
    (DotDims.plain M K N).lhsIdx (ix2 p q) ((contrEquiv1 (DotDims.plain M K N) K rfl rfl).symm c) = ix2 p c := by
  funext a
  refine Fin.ext ?_
  match a with
  | ⟨0, _⟩ => rfl
  | ⟨1, _⟩ =>
    show ((DotDims.plain M K N).lhsIdx (ix2 p q) ((contrEquiv1 (DotDims.plain M K N) K rfl rfl).symm c) 1).val = c.val
    rw [(DotDims.plain M K N).lhsIdx_val_of_single (cl := 1) rfl]
    exact contrEquiv1_symm_val (DotDims.plain M K N) K rfl rfl c

/-- The right operand's index there is `(c, q)`. -/
theorem plain_rhsIdx (M K N : ℕ) (p : Fin M) (q : Fin N) (c : Fin K) :
    (DotDims.plain M K N).rhsIdx (ix2 p q) ((contrEquiv1 (DotDims.plain M K N) K rfl rfl).symm c) = ix2 c q := by
  funext a
  refine Fin.ext ?_
  match a with
  | ⟨0, _⟩ =>
    show ((DotDims.plain M K N).rhsIdx (ix2 p q) ((contrEquiv1 (DotDims.plain M K N) K rfl rfl).symm c) 0).val = c.val
    rw [(DotDims.plain M K N).rhsIdx_val_of_single (cr := 0) rfl]
    exact contrEquiv1_symm_val (DotDims.plain M K N) K rfl rfl c
  | ⟨1, _⟩ => rfl

/-- Entry `(p, q)` of a plain product into the zero accumulator is `∑ c, lhs (p, c) · rhs (c, q)`. -/
theorem matmul_plain_zero_apply {φ₁ φ₂ : FTy} (M K N : ℕ) (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ c : Fin K, lhs (ix2 p c) * rhs (ix2 c q) := by
  rw [Ideal.matmul_constant_zero_apply, ← Equiv.sum_comp (contrEquiv1 (DotDims.plain M K N) K rfl rfl).symm]
  refine Finset.sum_congr rfl fun c _ => ?_
  rw [plain_lhsIdx, plain_rhsIdx]

end Cert.LibPlainDot
-- ==== Proof.LibHostRows.lean ====
/-
  Host operations on rank-2 arrays read at an entry, over the extended reals: a plain matrix product
  (`dot_general` M×K by K×N) as the sum over the contracted coordinate; the `broadcast_in_dim` forms of a
  keep-dimensions reduction ([b]→[1,b], [1,b]→[a,b], [a]→[a,1], [a,1]→[a,b], scalar→any); a rank-3 array cut
  along its leading axis; and a host sum along the rows of a matrix as the initial value plus the row's sum.
-/
import proofs.«119247_j37409165149000_1_alg».proof.Proof.LibPlainDot
import Idealize.ShloMosaic.Lib.Pipeline.Value
import Idealize.ShloMosaic.Lib.ValueIdx
import Idealize.ShloMosaic.PureOps.Ideal.Laws

namespace Cert.LibHostRows

open Idealize.ShloMosaic Idealize.ShloMosaic.ValueIdx

variable {α : Type}

/-- Entry `(p, q)` of the host's plain product is `∑ c, lhs (p, c) · rhs (c, q)`. -/
theorem dotGeneral_plain_apply {φ₁ φ₂ : FTy} (M K N : ℕ) (prec : Option ContractPrecision)
    (lhs : FVec Ideal ⟨2, ![M, K]⟩ φ₁) (rhs : FVec Ideal ⟨2, ![K, N]⟩ φ₂) (p : Fin M) (q : Fin N) :
    Host.dotGeneral (F := Ideal) (DotDims.plain M K N) prec lhs rhs (ix2 p q) = ∑ c : Fin K, lhs (ix2 p c) * rhs (ix2 c q) := by
  show FloatOps.dotGeneral (DotDims.plain M K N) prec .single lhs rhs (ix2 p q) = _
  rw [Ideal.dotGeneral_apply, ← Equiv.sum_comp (contrEquiv1 (DotDims.plain M K N) K rfl rfl).symm]
  refine Finset.sum_congr rfl fun c _ => ?_
  rw [Cert.LibPlainDot.plain_lhsIdx, Cert.LibPlainDot.plain_rhsIdx]

/-- A vector `[b]` placed as the one row of `[1, b]` reads, at `(u, c)`, the vector's entry `c`. -/
theorem broadcastInDim_b_1b_apply {b : ℕ} (v : (⟨1, ![b]⟩ : Shape).Idx → α)
    (h : (⟨1, ![b]⟩ : Shape).BroadcastsInDim ⟨2, ![1, b]⟩ (![1] : Fin 1 → Fin 2)) (u : Fin 1) (c : Fin b) :
    broadcastInDim ⟨2, ![1, b]⟩ (![1] : Fin 1 → Fin 2) h v (ix2 u c) = v (ix1 c) := by
  refine broadcastInDim_apply _ h v (ix2 u c) (ix1 c) fun ax => ?_
  match ax with
  | ⟨0, _⟩ =>
    show c.val = if b = 1 then 0 else c.val
    split
    · have := c.isLt; omega
    · rfl

/-- A row `[1, b]` repeated down `[a, b]` reads, at `(p, c)`, the row's entry `c`. -/
theorem broadcastInDim_1b_ab_apply {a b : ℕ} (v : (⟨2, ![1, b]⟩ : Shape).Idx → α)
    (h : (⟨2, ![1, b]⟩ : Shape).BroadcastsInDim ⟨2, ![a, b]⟩ (![0, 1] : Fin 2 → Fin 2)) (p : Fin a) (c : Fin b) :
    broadcastInDim ⟨2, ![a, b]⟩ (![0, 1] : Fin 2 → Fin 2) h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[a]` placed as the one column of `[a, 1]` reads, at `(p, u)`, the vector's entry `p`. -/
theorem broadcastInDim_a_a1_apply {a : ℕ} (v : (⟨1, ![a]⟩ : Shape).Idx → α)
    (h : (⟨1, ![a]⟩ : Shape).BroadcastsInDim ⟨2, ![a, 1]⟩ (![0] : Fin 1 → Fin 2)) (p : Fin a) (u : Fin 1) :
    broadcastInDim ⟨2, ![a, 1]⟩ (![0] : Fin 1 → Fin 2) h v (ix2 p u) = v (ix1 p) := by
  refine broadcastInDim_apply _ h v (ix2 p u) (ix1 p) fun ax => ?_
  match ax with
  | ⟨0, _⟩ =>
    show p.val = if a = 1 then 0 else p.val
    split
    · have := p.isLt; omega
    · rfl

/-- A column `[a, 1]` repeated along `[a, b]` reads, at `(p, c)`, the column's entry of row `p`. -/
theorem broadcastInDim_a1_ab_apply {a b : ℕ} (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ (![0, 1] : Fin 2 → Fin 2) h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-- A scalar spread over any shape reads the scalar everywhere. -/
theorem broadcastInDim_scalar_apply {t : Shape} (v : (⟨0, ![]⟩ : Shape).Idx → α)
    (h : (⟨0, ![]⟩ : Shape).BroadcastsInDim t (![] : Fin 0 → Fin t.rank)) (j : t.Idx) :
    broadcastInDim t (![] : Fin 0 → Fin t.rank) h v j = v ix0 :=
  broadcastInDim_apply _ h v j ix0 fun ax => ax.elim0

/-- A rank-3 array cut along its leading axis from `o` reads, at `(j, d, e)`, the source at `(k, d, e)` with `k = o + j`. -/
theorem slice3_axis0_apply {n0 n1 n2 m : ℕ} (o : ℕ) (X : (⟨3, ![n0, n1, n2]⟩ : Shape).Idx → α)
    (h : (⟨3, ![n0, n1, n2]⟩ : Shape).Slices ![o, 0, 0] ⟨3, ![m, n1, n2]⟩)
    (j : Fin m) (d : Fin n1) (e : Fin n2) (k : Fin n0) (hk : k.val = o + j.val) :
    extractStridedSlice ⟨3, ![m, n1, n2]⟩ ![o, 0, 0] X h (ix3 j d e) = X (ix3 k d e) :=
  extractStridedSlice_apply _ _ _ _ _ (fun ax => by
    match ax with
    | ⟨0, _⟩ => exact hk
    | ⟨1, _⟩ => exact (Nat.zero_add _).symm
    | ⟨2, _⟩ => exact (Nat.zero_add _).symm)

/-- The host's sum of a matrix along its rows, read at row `p`: the initial value plus the sum of the row. -/
theorem hostReduceAdd_rows_apply {φ : FTy} {a b : ℕ} (x : FVec Ideal ⟨2, ![a, b]⟩ φ) (init : (⟨0, ![]⟩ : Shape).Idx → Ideal φ)
    (h : (⟨2, ![a, b]⟩ : Shape).ReducesTo [1] ⟨1, ![a]⟩) (hu : 0 < (⟨0, ![]⟩ : Shape).numel) (p : Fin a) :
    Host.reduceAdd (F := Ideal) x init h hu (ix1 p) = init ix0 + ∑ k : Fin b, x (ix2 p k) := by
  show Ideal.hostReduceAdd h x (init (Shape.Idx.first hu)) (ix1 p) = _
  rw [Ideal.hostReduceAdd_single h ⟨h.1, Nat.one_pos, h.2⟩ x _ (ix1 p), eq_ix0 (Shape.Idx.first hu)]
  refine congrArg (init ix0 + ·) (Finset.sum_congr rfl fun k _ => congrArg x ?_)
  funext d
  match d with
  | ⟨0, _⟩ => rfl
  | ⟨1, _⟩ => rfl

end Cert.LibHostRows
-- ==== Proof.RegProj0.lean ====
/-
  The first projection call, read as whole arrays: with the node features X : [100000, 128] and two weight matrices
  W1, W2 : [128, 128] (already [in, out]) as the call finds them, its two results end at the plain products X · W1
  and X · W2.

  The call walks 20 row blocks of 5000 rows. At block t the body multiplies rows 5000 t … 5000 t + 4999 of X by
  the whole of W (the rounding of the operands to bf16 is the identity over the extended reals), so entry (p, q) of
  what it writes back is the sum over k of X (5000 t + p, k) · W (k, q): entry (5000 t + p, q) of the whole
  product. The 20 blocks tile the rows, so the arrays end holding the whole products.
-/
import proofs.«119247_j37409165149000_1_alg».proof.Proof.Gen.KernelIdeal.Frame
import proofs.«119247_j37409165149000_1_alg».proof.Proof.Net
import proofs.«119247_j37409165149000_1_alg».proof.Proof.LibPlainDot
import proofs.«119247_j37409165149000_1_alg».proof.Proof.LibHostRows
import Idealize.ShloMosaic.Lib.Pipeline.Value
import Idealize.ShloMosaic.Lib.ValueIdx

set_option maxRecDepth 16384

noncomputable section

namespace Cert.KernelIdeal.Proj0

open Idealize.ShloMosaic Idealize.ShloMosaic.TcCoe Idealize.ShloMosaic.ValueIdx Idealize.SL.Sem
open Idealize.ShloMosaic.Pipeline (Dat Cfg Window)
open Cert.KernelIdeal Cert.KernelIdeal.Gen

theorem hz : (![0, 0] : Fin 2 → Nat) = fun _ => 0 := funext fun a => by fin_cases a <;> rfl

/-- Entry (p, q) of the body's first product: the row p of the features block against column q of the weights. -/
theorem pay2_apply (x0 : Vec Ideal S5000x128 .f32) (x1 : Vec Ideal S128x128 .f32) (p : Fin 5000) (q : Fin 128) :
    k0_pay2 x0 x1 (ix2 p q) = ∑ k : Fin 128, x0 (ix2 p k) * x1 (ix2 k q) := by
  unfold k0_pay2 k0_pay1
  simp only [shapeCast_self]
  exact Cert.LibPlainDot.matmul_plain_zero_apply 5000 128 128 none (truncf .bf16 x0 bitsLt_bf16_f32) (truncf .bf16 x1 bitsLt_bf16_f32) p q

theorem pay3_apply (x0 : Vec Ideal S5000x128 .f32) (x1 : Vec Ideal S128x128 .f32) (p : Fin 5000) (q : Fin 128) :
    k0_pay3 x0 x1 (ix2 p q) = ∑ k : Fin 128, x0 (ix2 p k) * x1 (ix2 k q) := by
  unfold k0_pay3 k0_pay1
  simp only [shapeCast_self]
  exact Cert.LibPlainDot.matmul_plain_zero_apply 5000 128 128 none (truncf .bf16 x0 bitsLt_bf16_f32) (truncf .bf16 x1 bitsLt_bf16_f32) p q

/-- Entry (i, q) of the whole product. -/
theorem proj_apply (X : (⟨S100000x128, .f32⟩ : BufTy).Contents (Elt Ideal)) (W : (⟨S128x128, .f32⟩ : BufTy).Contents (Elt Ideal))
    (i : Fin 100000) (q : Fin 128) :
    Net.proj (F := Ideal) X W (ix2 i q) = ∑ k : Fin 128, X (ix2 i k) * W (ix2 k q) :=
  Cert.LibHostRows.dotGeneral_plain_apply 100000 128 128 none X W i q

/-- The printed index maps over the grid: the features window and both result windows sit at row block `t`, the two
    weight windows at the origin. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

section Blocks

variable (V : (c : Dev nD) → (b : Ref sig .tc) → Buf (Elt Ideal) ((c : Thread nD τ).loc b))

/-- Row `p` of the features block at point `t` is row `5000 t + p` of the features. -/
theorem iblk_x (c : Dev nD) (t : Fin cfg0.N) (p : Fin 5000) (k : Fin 128) (i : Fin 100000) (hi : i.val = 5000 * t.val + p.val) :
    (iblk0 V c 0 t : Vec Ideal S5000x128 .f32) (ix2 p k) = (V c main_arg0 : S100000x128.Idx → Elt Ideal .f32) (ix2 i k) := by
  obtain ⟨e0, e1, -⟩ := idx_facts t
  unfold iblk0
  rw [View.read_apply]
  show V c main_arg0 _ = V c main_arg0 _
  refine congrArg (V c main_arg0) ?_
  funext a
  apply Fin.ext
  match a with
  | ⟨0, _⟩ => show win0_0.index t 0 * 5000 + 1 * p.val = i.val; rw [e0, hi]; omega
  | ⟨1, _⟩ => show win0_0.index t 1 * 128 + 1 * k.val = k.val; rw [e1]; omega

/-- The first weight window's block is the whole matrix at every point. -/
theorem iblk_w1 (c : Dev nD) (t : Fin cfg0.N) (k q : Fin 128) :
    (iblk0 V c 1 t : Vec Ideal S128x128 .f32) (ix2 k q) = (V c main_v4 : S128x128.Idx → Elt Ideal .f32) (ix2 k q) := by
  obtain ⟨-, -, e2, e3, -⟩ := idx_facts t
  unfold iblk0
  rw [View.read_apply]
  show V c main_v4 _ = V c main_v4 _
  refine congrArg (V c main_v4) ?_
  funext a
  apply Fin.ext
  match a with
  | ⟨0, _⟩ => show win0_1.index t 0 * 128 + 1 * k.val = k.val; rw [e2]; omega
  | ⟨1, _⟩ => show win0_1.index t 1 * 128 + 1 * q.val = q.val; rw [e3]; omega

theorem iblk_w2 (c : Dev nD) (t : Fin cfg0.N) (k q : Fin 128) :
    (iblk0 V c 2 t : Vec Ideal S128x128 .f32) (ix2 k q) = (V c main_v5 : S128x128.Idx → Elt Ideal .f32) (ix2 k q) := by
  obtain ⟨-, -, -, -, e4, e5, -⟩ := idx_facts t
  unfold iblk0
  rw [View.read_apply]
  show V c main_v5 _ = V c main_v5 _
  refine congrArg (V c main_v5) ?_
  funext a
  apply Fin.ext
  match a with
  | ⟨0, _⟩ => show win0_2.index t 0 * 128 + 1 * k.val = k.val; rw [e4]; omega
  | ⟨1, _⟩ => show win0_2.index t 1 * 128 + 1 * q.val = q.val; rw [e5]; omega

/-- What point `t` writes back to the first result is block `t` of the whole product. -/
theorem flushed3 (c : Dev nD) (t : Fin cfg0.N) :
    (dat0 (F := Ideal) V c).flushed 3 t
      = ((cfg0.win 3).blk t).view.read (Elt Ideal) (Net.proj (F := Ideal) (V c main_arg0) (V c main_v4)) := by
  have ht : t.val < 20 := lt_of_lt_of_eq t.isLt N_0
  obtain ⟨-, -, -, -, -, -, e6, e7, -⟩ := idx_facts t
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz]
  funext j
  obtain ⟨p, q, rfl⟩ : ∃ (p : Fin 5000) (q : Fin 128), j = ix2 p q := ⟨j 0, j 1, eq_ix2 j⟩
  rw [View.read_apply]
  have hemb : ((cfg0.win 3).blk t).view.emb (ix2 p q) = ix2 (⟨5000 * t.val + p.val, by omega⟩ : Fin 100000) q := by
    funext a
    apply Fin.ext
    match a with
    | ⟨0, _⟩ => show win0_3.index t 0 * 5000 + 1 * p.val = 5000 * t.val + p.val; rw [e6]; omega
    | ⟨1, _⟩ => show win0_3.index t 1 * 128 + 1 * q.val = q.val; rw [e7]; omega
  rw [hemb, proj_apply]
  show k0_pay2 (iblk0 V c 0 t) (iblk0 V c 1 t) (ix2 p q) = _
  rw [pay2_apply]
  refine Finset.sum_congr rfl fun k _ => ?_
  rw [iblk_x V c t p k ⟨5000 * t.val + p.val, by omega⟩ rfl, iblk_w1 V c t k q]

end Blocks

section Whole

variable (V : (c : Dev nD) → (b : Ref sig .tc) → Buf (Elt Ideal) ((c : Thread nD τ).loc b))

/-- What point `t` writes back to the second result is block `t` of the second whole product. -/
theorem flushed4 (c : Dev nD) (t : Fin cfg0.N) :
    (dat0 (F := Ideal) V c).flushed 4 t
      = ((cfg0.win 4).blk t).view.read (Elt Ideal) (Net.proj (F := Ideal) (V c main_arg0) (V c main_v5)) := by
  have ht : t.val < 20 := lt_of_lt_of_eq t.isLt N_0
  obtain ⟨-, -, -, -, -, -, -, -, e8, e9⟩ := idx_facts t
  show (cfg0.win 4).cut (grid0.coords t) ((dat0 V c).after 4 t) = _
  rw [after0_4]
  unfold out0_4
  rw [View.canon_unit_zero hz]
  simp only [View.ld_unit_zero (S := S5000x128) hz, View.ld_unit_zero (S := S128x128) hz]
  funext j
  obtain ⟨p, q, rfl⟩ : ∃ (p : Fin 5000) (q : Fin 128), j = ix2 p q := ⟨j 0, j 1, eq_ix2 j⟩
  rw [View.read_apply]
  have hemb : ((cfg0.win 4).blk t).view.emb (ix2 p q) = ix2 (⟨5000 * t.val + p.val, by omega⟩ : Fin 100000) q := by
    funext a
    apply Fin.ext
    match a with
    | ⟨0, _⟩ => show win0_4.index t 0 * 5000 + 1 * p.val = 5000 * t.val + p.val; rw [e8]; omega
    | ⟨1, _⟩ => show win0_4.index t 1 * 128 + 1 * q.val = q.val; rw [e9]; omega
  rw [hemb, proj_apply]
  show k0_pay3 (iblk0 V c 0 t) (iblk0 V c 2 t) (ix2 p q) = _
  rw [pay3_apply]
  refine Finset.sum_congr rfl fun k _ => ?_
  rw [iblk_x V c t p k ⟨5000 * t.val + p.val, by omega⟩ rfl, iblk_w2 V c t k q]

/-- An index of the first result is in point `t`'s block iff each coordinate is in the block's range. -/
theorem mem_blk3 (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v6_0).slice (win0_3.rect t)).set ↔ _
  rw [View.set_slice_whole, Rect.mem_set_unit]
  exact Iff.rfl

theorem mem_blk4 (t : Fin cfg0.N) (i : S100000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v6_1).slice (win0_4.rect t)).set ↔ _
  rw [View.set_slice_whole, Rect.mem_set_unit]
  exact Iff.rfl

/-- Row `r` of a result lies in the block of point `r / 5000`: the 20 blocks tile the rows. -/
theorem cover3 (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 20 := N_0
  obtain ⟨t, htv⟩ : ∃ t : Fin cfg0.N, t.val = (i 0).val / 5000 := ⟨⟨(i 0).val / 5000, by rw [hN]; omega⟩, rfl⟩
  obtain ⟨-, -, -, -, -, -, e6, e7, -⟩ := idx_facts t
  refine ⟨t, flush0_3 t, ?_⟩
  rw [mem_blk3]
  intro a
  match a with
  | ⟨0, _⟩ => show win0_3.index t 0 * 5000 ≤ (i 0).val ∧ (i 0).val < win0_3.index t 0 * 5000 + 5000; rw [e6, htv]; omega
  | ⟨1, _⟩ => show win0_3.index t 1 * 128 ≤ (i 1).val ∧ (i 1).val < win0_3.index t 1 * 128 + 128; rw [e7]; omega

theorem cover4 (i : S100000x128.Idx) : ∃ t : Fin cfg0.N, (cfg0.win 4).flush t = true ∧ i ∈ ((cfg0.win 4).blk t).view.set := by
  have hi0 : (i 0).val < 100000 := (i 0).isLt
  have hi1 : (i 1).val < 128 := (i 1).isLt
  have hN : cfg0.N = 20 := N_0
  obtain ⟨t, htv⟩ : ∃ t : Fin cfg0.N, t.val = (i 0).val / 5000 := ⟨⟨(i 0).val / 5000, by rw [hN]; omega⟩, rfl⟩
  obtain ⟨-, -, -, -, -, -, -, -, e8, e9⟩ := idx_facts t
  refine ⟨t, flush0_4 t, ?_⟩
  rw [mem_blk4]
  intro a
  match a with
  | ⟨0, _⟩ => show win0_4.index t 0 * 5000 ≤ (i 0).val ∧ (i 0).val < win0_4.index t 0 * 5000 + 5000; rw [e8, htv]; omega
  | ⟨1, _⟩ => show win0_4.index t 1 * 128 ≤ (i 1).val ∧ (i 1).val < win0_4.index t 1 * 128 + 128; rw [e9]; omega

/-- The first result array after the call: the features times the first weight matrix. -/
theorem final3 (c : Dev nD) :
    (dat0 (F := Ideal) V c).arrAt 3 cfg0.N = Net.proj (F := Ideal) (V c main_arg0) (V c main_v4) :=
  (dat0 (F := Ideal) V c).arrAt_eq_of_cover 3 _ (fun t _ => flushed3 V c t) cover3

/-- The second result array after the call: the features times the second weight matrix. -/
theorem final4 (c : Dev nD) :
    (dat0 (F := Ideal) V c).arrAt 4 cfg0.N = Net.proj (F := Ideal) (V c main_arg0) (V c main_v5) :=
  (dat0 (F := Ideal) V c).arrAt_eq_of_cover 4 _ (fun t _ => flushed4 V c t) cover4

end Whole

end Cert.KernelIdeal.Proj0

end
-- ==== Proof.RegProj2.lean ====
/-
  The second projection call, read as whole arrays: with the node features X : [100000, 128] and two weight matrices
  W1, W2 : [128, 128] (already [in, out]) as the call finds them, its two results end at the plain products X · W1
  and X · W2.

  The call walks 20 row blocks of 5000 rows. At block t the body multiplies rows 5000 t … 5000 t + 4999 of X by
  the whole of W (the rounding of the operands to bf16 is the identity over the extended reals), so entry (p, q) of
  what it writes back is the sum over k of X (5000 t + p, k) · W (k, q): entry (5000 t + p, q) of the whole
  product. The 20 blocks tile the rows, so the arrays end holding the whole products.
-/
import proofs.«119247_j37409165149000_1_alg».proof.Proof.Gen.KernelIdeal.Frame
import proofs.«119247_j37409165149000_1_alg».proof.Proof.Net
import proofs.«119247_j37409165149000_1_alg».proof.Proof.LibPlainDot
import proofs.«119247_j37409165149000_1_alg».proof.Proof.LibHostRows
import Idealize.ShloMosaic.Lib.Pipeline.Value
import Idealize.ShloMosaic.Lib.ValueIdx

set_option maxRecDepth 16384

noncomputable section

namespace Cert.KernelIdeal.Proj2

open Idealize.ShloMosaic Idealize.ShloMosaic.TcCoe Idealize.ShloMosaic.ValueIdx Idealize.SL.Sem
open Idealize.ShloMosaic.Pipeline (Dat Cfg Window)
open Cert.KernelIdeal Cert.KernelIdeal.Gen

theorem hz : (![0, 0] : Fin 2 → Nat) = fun _ => 0 := funext fun a => by fin_cases a <;> rfl

/-- Entry (p, q) of the body's first product: the row p of the features block against column q of the weights. -/
theorem pay2_apply (x0 : Vec Ideal S5000x128 .f32) (x1 : Vec Ideal S128x128 .f32) (p : Fin 5000) (q : Fin 128) :
    k2_pay2 x0 x1 (ix2 p q) = ∑ k : Fin 128, x0 (ix2 p k) * x1 (ix2 k q) := by
  unfold k2_pay2 k2_pay1
  simp only [shapeCast_self]
  exact Cert.LibPlainDot.matmul_plain_zero_apply 5000 128 128 none (truncf .bf16 x0 bitsLt_bf16_f32) (truncf .bf16 x1 bitsLt_bf16_f32) p q

theorem pay3_apply (x0 : Vec Ideal S5000x128 .f32) (x1 : Vec Ideal S128x128 .f32) (p : Fin 5000) (q : Fin 128) :
    k2_pay3 x0 x1 (ix2 p q) = ∑ k : Fin 128, x0 (ix2 p k) * x1 (ix2 k q) := by
  unfold k2_pay3 k2_pay1
  simp only [shapeCast_self]
  exact Cert.LibPlainDot.matmul_plain_zero_apply 5000 128 128 none (truncf .bf16 x0 bitsLt_bf16_f32) (truncf .bf16 x1 bitsLt_bf16_f32) p q

/-- Entry (i, q) of the whole product. -/
theorem proj_apply (X : (⟨S100000x128, .f32⟩ : BufTy).Contents (Elt Ideal)) (W : (⟨S128x128, .f32⟩ : BufTy).Contents (Elt Ideal))
    (i : Fin 100000) (q : Fin 128) :
    Net.proj (F := Ideal) X W (ix2 i q) = ∑ k : Fin 128, X (ix2 i k) * W (ix2 k q) :=
  Cert.LibHostRows.dotGeneral_plain_apply 100000 128 128 none X W i q

/-- The printed index maps over the grid: the features window and both result windows sit at row block `t`, the two
    weight windows at the origin. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

section Blocks

variable (V : (c : Dev nD) → (b : Ref sig .tc) → Buf (Elt Ideal) ((c : Thread nD τ).loc b))

/-- Row `p` of the features block at point `t` is row `5000 t + p` of the features. -/
theorem iblk_x (c : Dev nD) (t : Fin cfg2.N) (p : Fin 5000) (k : Fin 128) (i : Fin 100000) (hi : i.val = 5000 * t.val + p.val) :
    (iblk2 V c 0 t : Vec Ideal S5000x128 .f32) (ix2 p k) = (V c main_v17 : S100000x128.Idx → Elt Ideal .f32) (ix2 i k) := by
  obtain ⟨e0, e1, -⟩ := idx_facts t
  unfold iblk2
  rw [View.read_apply]
  show V c main_v17 _ = V c main_v17 _
  refine congrArg (V c main_v17) ?_
  funext a
  apply Fin.ext
  match a with
  | ⟨0, _⟩ => show win2_0.index t 0 * 5000 + 1 * p.val = i.val; rw [e0, hi]; omega
  | ⟨1, _⟩ => show win2_0.index t 1 * 128 + 1 * k.val = k.val; rw [e1]; omega

/-- The first weight window's block is the whole matrix at every point. -/
theorem iblk_w1 (c : Dev nD) (t : Fin cfg2.N) (k q : Fin 128) :
    (iblk2 V c 1 t : Vec Ideal S128x128 .f32) (ix2 k q) = (V c main_v18 : S128x128.Idx → Elt Ideal .f32) (ix2 k q) := by
  obtain ⟨-, -, e2, e3, -⟩ := idx_facts t
  unfold iblk2
  rw [View.read_apply]
  show V c main_v18 _ = V c main_v18 _
  refine congrArg (V c main_v18) ?_
  funext a
  apply Fin.ext
  match a with
  | ⟨0, _⟩ => show win2_1.index t 0 * 128 + 1 * k.val = k.val; rw [e2]; omega
  | ⟨1, _⟩ => show win2_1.index t 1 * 128 + 1 * q.val = q.val; rw [e3]; omega

theorem iblk_w2 (c : Dev nD) (t : Fin cfg2.N) (k q : Fin 128) :
    (iblk2 V c 2 t : Vec Ideal S128x128 .f32) (ix2 k q) = (V c main_v19 : S128x128.Idx → Elt Ideal .f32) (ix2 k q) := by
  obtain ⟨-, -, -, -, e4, e5, -⟩ := idx_facts t
  unfold iblk2
  rw [View.read_apply]
  show V c main_v19 _ = V c main_v19 _
  refine congrArg (V c main_v19) ?_
  funext a
  apply Fin.ext
  match a with
  | ⟨0, _⟩ => show win2_2.index t 0 * 128 + 1 * k.val = k.val; rw [e4]; omega
  | ⟨1, _⟩ => show win2_2.index t 1 * 128 + 1 * q.val = q.val; rw [e5]; omega

/-- What point `t` writes back to the first result is block `t` of the whole product. -/
theorem flushed3 (c : Dev nD) (t : Fin cfg2.N) :
    (dat2 (F := Ideal) V c).flushed 3 t
      = ((cfg2.win 3).blk t).view.read (Elt Ideal) (Net.proj (F := Ideal) (V c main_v17) (V c main_v18)) := by
  have ht : t.val < 20 := lt_of_lt_of_eq t.isLt N_2
  obtain ⟨-, -, -, -, -, -, e6, e7, -⟩ := idx_facts t
  show (cfg2.win 3).cut (grid2.coords t) ((dat2 V c).after 3 t) = _
  rw [after2_3]
  unfold out2_3
  rw [View.canon_unit_zero hz]
  simp only [View.ld_unit_zero (S := S5000x128) hz, View.ld_unit_zero (S := S128x128) hz]
  funext j
  obtain ⟨p, q, rfl⟩ : ∃ (p : Fin 5000) (q : Fin 128), j = ix2 p q := ⟨j 0, j 1, eq_ix2 j⟩
  rw [View.read_apply]
  have hemb : ((cfg2.win 3).blk t).view.emb (ix2 p q) = ix2 (⟨5000 * t.val + p.val, by omega⟩ : Fin 100000) q := by
    funext a
    apply Fin.ext
    match a with
    | ⟨0, _⟩ => show win2_3.index t 0 * 5000 + 1 * p.val = 5000 * t.val + p.val; rw [e6]; omega
    | ⟨1, _⟩ => show win2_3.index t 1 * 128 + 1 * q.val = q.val; rw [e7]; omega
  rw [hemb, proj_apply]
  show k2_pay2 (iblk2 V c 0 t) (iblk2 V c 1 t) (ix2 p q) = _
  rw [pay2_apply]
  refine Finset.sum_congr rfl fun k _ => ?_
  rw [iblk_x V c t p k ⟨5000 * t.val + p.val, by omega⟩ rfl, iblk_w1 V c t k q]

end Blocks

section Whole

variable (V : (c : Dev nD) → (b : Ref sig .tc) → Buf (Elt Ideal) ((c : Thread nD τ).loc b))

/-- What point `t` writes back to the second result is block `t` of the second whole product. -/
theorem flushed4 (c : Dev nD) (t : Fin cfg2.N) :
    (dat2 (F := Ideal) V c).flushed 4 t
      = ((cfg2.win 4).blk t).view.read (Elt Ideal) (Net.proj (F := Ideal) (V c main_v17) (V c main_v19)) := by
  have ht : t.val < 20 := lt_of_lt_of_eq t.isLt N_2
  obtain ⟨-, -, -, -, -, -, -, -, e8, e9⟩ := idx_facts t
  show (cfg2.win 4).cut (grid2.coords t) ((dat2 V c).after 4 t) = _
  rw [after2_4]
  unfold out2_4
  rw [View.canon_unit_zero hz]
  simp only [View.ld_unit_zero (S := S5000x128) hz, View.ld_unit_zero (S := S128x128) hz]
  funext j
  obtain ⟨p, q, rfl⟩ : ∃ (p : Fin 5000) (q : Fin 128), j = ix2 p q := ⟨j 0, j 1, eq_ix2 j⟩
  rw [View.read_apply]
  have hemb : ((cfg2.win 4).blk t).view.emb (ix2 p q) = ix2 (⟨5000 * t.val + p.val, by omega⟩ : Fin 100000) q := by
    funext a
    apply Fin.ext
    match a with
    | ⟨0, _⟩ => show win2_4.index t 0 * 5000 + 1 * p.val = 5000 * t.val + p.val; rw [e8]; omega
    | ⟨1, _⟩ => show win2_4.index t 1 * 128 + 1 * q.val = q.val; rw [e9]; omega
  rw [hemb, proj_apply]
  show k2_pay3 (iblk2 V c 0 t) (iblk2 V c 2 t) (ix2 p q) = _
  rw [pay3_apply]
  refine Finset.sum_congr rfl fun k _ => ?_
  rw [iblk_x V c t p k ⟨5000 * t.val + p.val, by omega⟩ rfl, iblk_w2 V c t k q]

/-- An index of the first result is in point `t`'s block iff each coordinate is in the block's range. -/
theorem mem_blk3 (t : Fin cfg2.N) (i : S100000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v20_0).slice (win2_3.rect t)).set ↔ _
  rw [View.set_slice_whole, Rect.mem_set_unit]
  exact Iff.rfl

theorem mem_blk4 (t : Fin cfg2.N) (i : S100000x128.Idx) :
    i ∈ ((cfg2.win 4).blk t).view.set ↔ ∀ a : Fin 2, win2_4.index t a * S5000x128.size a ≤ (i a).val ∧ (i a).val < win2_4.index t a * S5000x128.size a + S5000x128.size a := by
  show i ∈ ((View.whole main_v20_1).slice (win2_4.rect t)).set ↔ _
  rw [View.set_slice_whole, Rect.mem_set_unit]
  exact Iff.rfl

/-- Row `r` of a result lies in the block of point `r / 5000`: the 20 blocks tile the rows. -/
theorem cover3 (i : S100000x128.Idx) : ∃ t : Fin cfg2.N, (cfg2.win 3).flush t = true ∧ i ∈ ((cfg2.win 3).blk t).view.set := by
  have hi0 : (i 0).val < 100000 := (i 0).isLt
  have hi1 : (i 1).val < 128 := (i 1).isLt
  have hN : cfg2.N = 20 := N_2
  obtain ⟨t, htv⟩ : ∃ t : Fin cfg2.N, t.val = (i 0).val / 5000 := ⟨⟨(i 0).val / 5000, by rw [hN]; omega⟩, rfl⟩
  obtain ⟨-, -, -, -, -, -, e6, e7, -⟩ := idx_facts t
  refine ⟨t, flush2_3 t, ?_⟩
  rw [mem_blk3]
  intro a
  match a with
  | ⟨0, _⟩ => show win2_3.index t 0 * 5000 ≤ (i 0).val ∧ (i 0).val < win2_3.index t 0 * 5000 + 5000; rw [e6, htv]; omega
  | ⟨1, _⟩ => show win2_3.index t 1 * 128 ≤ (i 1).val ∧ (i 1).val < win2_3.index t 1 * 128 + 128; rw [e7]; omega

theorem cover4 (i : S100000x128.Idx) : ∃ t : Fin cfg2.N, (cfg2.win 4).flush t = true ∧ i ∈ ((cfg2.win 4).blk t).view.set := by
  have hi0 : (i 0).val < 100000 := (i 0).isLt
  have hi1 : (i 1).val < 128 := (i 1).isLt
  have hN : cfg2.N = 20 := N_2
  obtain ⟨t, htv⟩ : ∃ t : Fin cfg2.N, t.val = (i 0).val / 5000 := ⟨⟨(i 0).val / 5000, by rw [hN]; omega⟩, rfl⟩
  obtain ⟨-, -, -, -, -, -, -, -, e8, e9⟩ := idx_facts t
  refine ⟨t, flush2_4 t, ?_⟩
  rw [mem_blk4]
  intro a
  match a with
  | ⟨0, _⟩ => show win2_4.index t 0 * 5000 ≤ (i 0).val ∧ (i 0).val < win2_4.index t 0 * 5000 + 5000; rw [e8, htv]; omega
  | ⟨1, _⟩ => show win2_4.index t 1 * 128 ≤ (i 1).val ∧ (i 1).val < win2_4.index t 1 * 128 + 128; rw [e9]; omega

/-- The first result array after the call: the features times the first weight matrix. -/
theorem final3 (c : Dev nD) :
    (dat2 (F := Ideal) V c).arrAt 3 cfg2.N = Net.proj (F := Ideal) (V c main_v17) (V c main_v18) :=
  (dat2 (F := Ideal) V c).arrAt_eq_of_cover 3 _ (fun t _ => flushed3 V c t) cover3

/-- The second result array after the call: the features times the second weight matrix. -/
theorem final4 (c : Dev nD) :
    (dat2 (F := Ideal) V c).arrAt 4 cfg2.N = Net.proj (F := Ideal) (V c main_v17) (V c main_v19) :=
  (dat2 (F := Ideal) V c).arrAt_eq_of_cover 4 _ (fun t _ => flushed4 V c t) cover4

end Whole

end Cert.KernelIdeal.Proj2

end
-- ==== Proof.RegProj4.lean ====
/-
  The third projection call, read as whole arrays: with the node features X : [100000, 128] and two weight matrices
  W1, W2 : [128, 128] (already [in, out]) as the call finds them, its two results end at the plain products X · W1
  and X · W2.

  The call walks 20 row blocks of 5000 rows. At block t the body multiplies rows 5000 t … 5000 t + 4999 of X by
  the whole of W (the rounding of the operands to bf16 is the identity over the extended reals), so entry (p, q) of
  what it writes back is the sum over k of X (5000 t + p, k) · W (k, q): entry (5000 t + p, q) of the whole
  product. The 20 blocks tile the rows, so the arrays end holding the whole products.
-/
import proofs.«119247_j37409165149000_1_alg».proof.Proof.Gen.KernelIdeal.Frame
import proofs.«119247_j37409165149000_1_alg».proof.Proof.Net
import proofs.«119247_j37409165149000_1_alg».proof.Proof.LibPlainDot
import proofs.«119247_j37409165149000_1_alg».proof.Proof.LibHostRows
import Idealize.ShloMosaic.Lib.Pipeline.Value
import Idealize.ShloMosaic.Lib.ValueIdx

set_option maxRecDepth 16384

noncomputable section

namespace Cert.KernelIdeal.Proj4

open Idealize.ShloMosaic Idealize.ShloMosaic.TcCoe Idealize.ShloMosaic.ValueIdx Idealize.SL.Sem
open Idealize.ShloMosaic.Pipeline (Dat Cfg Window)
open Cert.KernelIdeal Cert.KernelIdeal.Gen

theorem hz : (![0, 0] : Fin 2 → Nat) = fun _ => 0 := funext fun a => by fin_cases a <;> rfl

/-- Entry (p, q) of the body's first product: the row p of the features block against column q of the weights. -/
theorem pay2_apply (x0 : Vec Ideal S5000x128 .f32) (x1 : Vec Ideal S128x128 .f32) (p : Fin 5000) (q : Fin 128) :
    k4_pay2 x0 x1 (ix2 p q) = ∑ k : Fin 128, x0 (ix2 p k) * x1 (ix2 k q) := by
  unfold k4_pay2 k4_pay1
  simp only [shapeCast_self]
  exact Cert.LibPlainDot.matmul_plain_zero_apply 5000 128 128 none (truncf .bf16 x0 bitsLt_bf16_f32) (truncf .bf16 x1 bitsLt_bf16_f32) p q

theorem pay3_apply (x0 : Vec Ideal S5000x128 .f32) (x1 : Vec Ideal S128x128 .f32) (p : Fin 5000) (q : Fin 128) :
    k4_pay3 x0 x1 (ix2 p q) = ∑ k : Fin 128, x0 (ix2 p k) * x1 (ix2 k q) := by
  unfold k4_pay3 k4_pay1
  simp only [shapeCast_self]
  exact Cert.LibPlainDot.matmul_plain_zero_apply 5000 128 128 none (truncf .bf16 x0 bitsLt_bf16_f32) (truncf .bf16 x1 bitsLt_bf16_f32) p q

/-- Entry (i, q) of the whole product. -/
theorem proj_apply (X : (⟨S100000x128, .f32⟩ : BufTy).Contents (Elt Ideal)) (W : (⟨S128x128, .f32⟩ : BufTy).Contents (Elt Ideal))
    (i : Fin 100000) (q : Fin 128) :
    Net.proj (F := Ideal) X W (ix2 i q) = ∑ k : Fin 128, X (ix2 i k) * W (ix2 k q) :=
  Cert.LibHostRows.dotGeneral_plain_apply 100000 128 128 none X W i q

/-- The printed index maps over the grid: the features window and both result windows sit at row block `t`, the two
    weight windows at the origin. -/
theorem idx_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0
    ∧ win4_4.index t (0 : Fin 2) = t.val ∧ win4_4.index t (1 : Fin 2) = 0 :=
  (by decide +kernel : ∀ t : Fin grid4.N, _)

section Blocks

variable (V : (c : Dev nD) → (b : Ref sig .tc) → Buf (Elt Ideal) ((c : Thread nD τ).loc b))

/-- Row `p` of the features block at point `t` is row `5000 t + p` of the features. -/
theorem iblk_x (c : Dev nD) (t : Fin cfg4.N) (p : Fin 5000) (k : Fin 128) (i : Fin 100000) (hi : i.val = 5000 * t.val + p.val) :
    (iblk4 V c 0 t : Vec Ideal S5000x128 .f32) (ix2 p k) = (V c main_v31 : S100000x128.Idx → Elt Ideal .f32) (ix2 i k) := by
  obtain ⟨e0, e1, -⟩ := idx_facts t
  unfold iblk4
  rw [View.read_apply]
  show V c main_v31 _ = V c main_v31 _
  refine congrArg (V c main_v31) ?_
  funext a
  apply Fin.ext
  match a with
  | ⟨0, _⟩ => show win4_0.index t 0 * 5000 + 1 * p.val = i.val; rw [e0, hi]; omega
  | ⟨1, _⟩ => show win4_0.index t 1 * 128 + 1 * k.val = k.val; rw [e1]; omega

/-- The first weight window's block is the whole matrix at every point. -/
theorem iblk_w1 (c : Dev nD) (t : Fin cfg4.N) (k q : Fin 128) :
    (iblk4 V c 1 t : Vec Ideal S128x128 .f32) (ix2 k q) = (V c main_v32 : S128x128.Idx → Elt Ideal .f32) (ix2 k q) := by
  obtain ⟨-, -, e2, e3, -⟩ := idx_facts t
  unfold iblk4
  rw [View.read_apply]
  show V c main_v32 _ = V c main_v32 _
  refine congrArg (V c main_v32) ?_
  funext a
  apply Fin.ext
  match a with
  | ⟨0, _⟩ => show win4_1.index t 0 * 128 + 1 * k.val = k.val; rw [e2]; omega
  | ⟨1, _⟩ => show win4_1.index t 1 * 128 + 1 * q.val = q.val; rw [e3]; omega

theorem iblk_w2 (c : Dev nD) (t : Fin cfg4.N) (k q : Fin 128) :
    (iblk4 V c 2 t : Vec Ideal S128x128 .f32) (ix2 k q) = (V c main_v33 : S128x128.Idx → Elt Ideal .f32) (ix2 k q) := by
  obtain ⟨-, -, -, -, e4, e5, -⟩ := idx_facts t
  unfold iblk4
  rw [View.read_apply]
  show V c main_v33 _ = V c main_v33 _
  refine congrArg (V c main_v33) ?_
  funext a
  apply Fin.ext
  match a with
  | ⟨0, _⟩ => show win4_2.index t 0 * 128 + 1 * k.val = k.val; rw [e4]; omega
  | ⟨1, _⟩ => show win4_2.index t 1 * 128 + 1 * q.val = q.val; rw [e5]; omega

/-- What point `t` writes back to the first result is block `t` of the whole product. -/
theorem flushed3 (c : Dev nD) (t : Fin cfg4.N) :
    (dat4 (F := Ideal) V c).flushed 3 t
      = ((cfg4.win 3).blk t).view.read (Elt Ideal) (Net.proj (F := Ideal) (V c main_v31) (V c main_v32)) := by
  have ht : t.val < 20 := lt_of_lt_of_eq t.isLt N_4
  obtain ⟨-, -, -, -, -, -, e6, e7, -⟩ := idx_facts t
  show (cfg4.win 3).cut (grid4.coords t) ((dat4 V c).after 3 t) = _
  rw [after4_3]
  unfold out4_3
  rw [View.canon_unit_zero hz]
  simp only [View.ld_unit_zero (S := S5000x128) hz, View.ld_unit_zero (S := S128x128) hz]
  funext j
  obtain ⟨p, q, rfl⟩ : ∃ (p : Fin 5000) (q : Fin 128), j = ix2 p q := ⟨j 0, j 1, eq_ix2 j⟩
  rw [View.read_apply]
  have hemb : ((cfg4.win 3).blk t).view.emb (ix2 p q) = ix2 (⟨5000 * t.val + p.val, by omega⟩ : Fin 100000) q := by
    funext a
    apply Fin.ext
    match a with
    | ⟨0, _⟩ => show win4_3.index t 0 * 5000 + 1 * p.val = 5000 * t.val + p.val; rw [e6]; omega
    | ⟨1, _⟩ => show win4_3.index t 1 * 128 + 1 * q.val = q.val; rw [e7]; omega
  rw [hemb, proj_apply]
  show k4_pay2 (iblk4 V c 0 t) (iblk4 V c 1 t) (ix2 p q) = _
  rw [pay2_apply]
  refine Finset.sum_congr rfl fun k _ => ?_
  rw [iblk_x V c t p k ⟨5000 * t.val + p.val, by omega⟩ rfl, iblk_w1 V c t k q]

end Blocks

section Whole

variable (V : (c : Dev nD) → (b : Ref sig .tc) → Buf (Elt Ideal) ((c : Thread nD τ).loc b))

/-- What point `t` writes back to the second result is block `t` of the second whole product. -/
theorem flushed4 (c : Dev nD) (t : Fin cfg4.N) :
    (dat4 (F := Ideal) V c).flushed 4 t
      = ((cfg4.win 4).blk t).view.read (Elt Ideal) (Net.proj (F := Ideal) (V c main_v31) (V c main_v33)) := by
  have ht : t.val < 20 := lt_of_lt_of_eq t.isLt N_4
  obtain ⟨-, -, -, -, -, -, -, -, e8, e9⟩ := idx_facts t
  show (cfg4.win 4).cut (grid4.coords t) ((dat4 V c).after 4 t) = _
  rw [after4_4]
  unfold out4_4
  rw [View.canon_unit_zero hz]
  simp only [View.ld_unit_zero (S := S5000x128) hz, View.ld_unit_zero (S := S128x128) hz]
  funext j
  obtain ⟨p, q, rfl⟩ : ∃ (p : Fin 5000) (q : Fin 128), j = ix2 p q := ⟨j 0, j 1, eq_ix2 j⟩
  rw [View.read_apply]
  have hemb : ((cfg4.win 4).blk t).view.emb (ix2 p q) = ix2 (⟨5000 * t.val + p.val, by omega⟩ : Fin 100000) q := by
    funext a
    apply Fin.ext
    match a with
    | ⟨0, _⟩ => show win4_4.index t 0 * 5000 + 1 * p.val = 5000 * t.val + p.val; rw [e8]; omega
    | ⟨1, _⟩ => show win4_4.index t 1 * 128 + 1 * q.val = q.val; rw [e9]; omega
  rw [hemb, proj_apply]
  show k4_pay3 (iblk4 V c 0 t) (iblk4 V c 2 t) (ix2 p q) = _
  rw [pay3_apply]
  refine Finset.sum_congr rfl fun k _ => ?_
  rw [iblk_x V c t p k ⟨5000 * t.val + p.val, by omega⟩ rfl, iblk_w2 V c t k q]

/-- An index of the first result is in point `t`'s block iff each coordinate is in the block's range. -/
theorem mem_blk3 (t : Fin cfg4.N) (i : S100000x128.Idx) :
    i ∈ ((cfg4.win 3).blk t).view.set ↔ ∀ a : Fin 2, win4_3.index t a * S5000x128.size a ≤ (i a).val ∧ (i a).val < win4_3.index t a * S5000x128.size a + S5000x128.size a := by
  show i ∈ ((View.whole main_v34_0).slice (win4_3.rect t)).set ↔ _
  rw [View.set_slice_whole, Rect.mem_set_unit]
  exact Iff.rfl

theorem mem_blk4 (t : Fin cfg4.N) (i : S100000x128.Idx) :
    i ∈ ((cfg4.win 4).blk t).view.set ↔ ∀ a : Fin 2, win4_4.index t a * S5000x128.size a ≤ (i a).val ∧ (i a).val < win4_4.index t a * S5000x128.size a + S5000x128.size a := by
  show i ∈ ((View.whole main_v34_1).slice (win4_4.rect t)).set ↔ _
  rw [View.set_slice_whole, Rect.mem_set_unit]
  exact Iff.rfl

/-- Row `r` of a result lies in the block of point `r / 5000`: the 20 blocks tile the rows. -/
theorem cover3 (i : S100000x128.Idx) : ∃ t : Fin cfg4.N, (cfg4.win 3).flush t = true ∧ i ∈ ((cfg4.win 3).blk t).view.set := by
  have hi0 : (i 0).val < 100000 := (i 0).isLt
  have hi1 : (i 1).val < 128 := (i 1).isLt
  have hN : cfg4.N = 20 := N_4
  obtain ⟨t, htv⟩ : ∃ t : Fin cfg4.N, t.val = (i 0).val / 5000 := ⟨⟨(i 0).val / 5000, by rw [hN]; omega⟩, rfl⟩
  obtain ⟨-, -, -, -, -, -, e6, e7, -⟩ := idx_facts t
  refine ⟨t, flush4_3 t, ?_⟩
  rw [mem_blk3]
  intro a
  match a with
  | ⟨0, _⟩ => show win4_3.index t 0 * 5000 ≤ (i 0).val ∧ (i 0).val < win4_3.index t 0 * 5000 + 5000; rw [e6, htv]; omega
  | ⟨1, _⟩ => show win4_3.index t 1 * 128 ≤ (i 1).val ∧ (i 1).val < win4_3.index t 1 * 128 + 128; rw [e7]; omega

theorem cover4 (i : S100000x128.Idx) : ∃ t : Fin cfg4.N, (cfg4.win 4).flush t = true ∧ i ∈ ((cfg4.win 4).blk t).view.set := by
  have hi0 : (i 0).val < 100000 := (i 0).isLt
  have hi1 : (i 1).val < 128 := (i 1).isLt
  have hN : cfg4.N = 20 := N_4
  obtain ⟨t, htv⟩ : ∃ t : Fin cfg4.N, t.val = (i 0).val / 5000 := ⟨⟨(i 0).val / 5000, by rw [hN]; omega⟩, rfl⟩
  obtain ⟨-, -, -, -, -, -, -, -, e8, e9⟩ := idx_facts t
  refine ⟨t, flush4_4 t, ?_⟩
  rw [mem_blk4]
  intro a
  match a with
  | ⟨0, _⟩ => show win4_4.index t 0 * 5000 ≤ (i 0).val ∧ (i 0).val < win4_4.index t 0 * 5000 + 5000; rw [e8, htv]; omega
  | ⟨1, _⟩ => show win4_4.index t 1 * 128 ≤ (i 1).val ∧ (i 1).val < win4_4.index t 1 * 128 + 128; rw [e9]; omega

/-- The first result array after the call: the features times the first weight matrix. -/
theorem final3 (c : Dev nD) :
    (dat4 (F := Ideal) V c).arrAt 3 cfg4.N = Net.proj (F := Ideal) (V c main_v31) (V c main_v32) :=
  (dat4 (F := Ideal) V c).arrAt_eq_of_cover 3 _ (fun t _ => flushed3 V c t) cover3

/-- The second result array after the call: the features times the second weight matrix. -/
theorem final4 (c : Dev nD) :
    (dat4 (F := Ideal) V c).arrAt 4 cfg4.N = Net.proj (F := Ideal) (V c main_v31) (V c main_v33) :=
  (dat4 (F := Ideal) V c).arrAt_eq_of_cover 4 _ (fun t _ => flushed4 V c t) cover4

end Whole

end Cert.KernelIdeal.Proj4

end
-- ==== Proof.RegRelu1.lean ====
/-
  The first combine call, read as whole arrays: with the self term A and the aggregated neighbour term B, both
  [100000, 128], as the call finds them, its result ends at max (A + B, 0), entry by entry.

  The call walks 20 row blocks of 5000 rows; at block t the body adds the two blocks and clamps below at zero,
  which is the same pointwise function of rows 5000 t … 5000 t + 4999 of A and B. The 20 blocks tile the rows.
-/
import proofs.«119247_j37409165149000_1_alg».proof.Proof.Gen.KernelIdeal.Frame
import proofs.«119247_j37409165149000_1_alg».proof.Proof.Net
import proofs.«119247_j37409165149000_1_alg».proof.Proof.LibPlainDot
import proofs.«119247_j37409165149000_1_alg».proof.Proof.LibHostRows
import Idealize.ShloMosaic.Lib.Pipeline.Value
import Idealize.ShloMosaic.Lib.ValueIdx

set_option maxRecDepth 16384

noncomputable section

namespace Cert.KernelIdeal.Relu1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Facts₀

theorem hz : (![0, 0] : Fin 2 → Nat) = fun _ => 0 := funext fun a => by fin_cases a <;> rfl

/-- The body's value at an entry: the sum of the two blocks there, clamped below at zero. -/
theorem pay_apply (x0 x1 : Vec Ideal S5000x128 .f32) (j : S5000x128.Idx) :
    k1_pay1 x0 x1 j = max (x0 j + x1 j) (Ideal.ofBits .f32 0x00000000#32) := by
  unfold k1_pay1
  simp only [shapeCast_self]
  rfl

/-- The whole-array combine at an entry. -/
theorem combine_apply (a b : (⟨S100000x128, .f32⟩ : BufTy).Contents (Elt Ideal)) (i : S100000x128.Idx) :
    Net.combine (F := Ideal) a b i = max (a i + b i) (Ideal.ofBits .f32 0x00000000#32) := by
  unfold Net.combine
  show max (a i + b i) (broadcastInDim S100000x128 ![] Facts₀.bcast_S_S100000x128 (constant (F := Ideal) S_ .f32 0x00000000#32) i) = _
  rw [Cert.LibHostRows.broadcastInDim_scalar_apply]
  rfl

/-- The printed index maps over the grid: all three windows sit at row block `t`. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

section Whole

variable (V : (c : Dev nD) → (b : Ref sig .tc) → Buf (Elt Ideal) ((c : Thread nD τ).loc b))

/-- Row `p` of the first input's block at point `t` is row `5000 t + p` of that input. -/
theorem iblk_a (c : Dev nD) (t : Fin cfg1.N) (p : Fin 5000) (k : Fin 128) (i : Fin 100000) (hi : i.val = 5000 * t.val + p.val) :
    (iblk1 V c 0 t : Vec Ideal S5000x128 .f32) (ix2 p k) = (V c main_v6_0 : S100000x128.Idx → Elt Ideal .f32) (ix2 i k) := by
  obtain ⟨e0, e1, -⟩ := idx_facts t
  unfold iblk1
  rw [View.read_apply]
  show V c main_v6_0 _ = V c main_v6_0 _
  refine congrArg (V c main_v6_0) ?_
  funext a
  apply Fin.ext
  match a with
  | ⟨0, _⟩ => show win1_0.index t 0 * 5000 + 1 * p.val = i.val; rw [e0, hi]; omega
  | ⟨1, _⟩ => show win1_0.index t 1 * 128 + 1 * k.val = k.val; rw [e1]; omega

theorem iblk_b (c : Dev nD) (t : Fin cfg1.N) (p : Fin 5000) (k : Fin 128) (i : Fin 100000) (hi : i.val = 5000 * t.val + p.val) :
    (iblk1 V c 1 t : Vec Ideal S5000x128 .f32) (ix2 p k) = (V c main_v16 : S100000x128.Idx → Elt Ideal .f32) (ix2 i k) := by
  obtain ⟨-, -, e2, e3, -⟩ := idx_facts t
  unfold iblk1
  rw [View.read_apply]
  show V c main_v16 _ = V c main_v16 _
  refine congrArg (V c main_v16) ?_
  funext a
  apply Fin.ext
  match a with
  | ⟨0, _⟩ => show win1_1.index t 0 * 5000 + 1 * p.val = i.val; rw [e2, hi]; omega
  | ⟨1, _⟩ => show win1_1.index t 1 * 128 + 1 * k.val = k.val; rw [e3]; omega

/-- What point `t` writes back is block `t` of the whole-array combine. -/
theorem flushed2 (c : Dev nD) (t : Fin cfg1.N) :
    (dat1 (F := Ideal) V c).flushed 2 t
      = ((cfg1.win 2).blk t).view.read (Elt Ideal) (Net.combine (F := Ideal) (V c main_v6_0) (V c main_v16)) := by
  have ht : t.val < 20 := lt_of_lt_of_eq t.isLt N_1
  obtain ⟨-, -, -, -, e4, e5⟩ := idx_facts t
  show (cfg1.win 2).cut (grid1.coords t) ((dat1 V c).after 2 t) = _
  rw [after1_2]
  unfold out1_2
  rw [View.canon_unit_zero hz]
  simp only [View.ld_unit_zero (S := S5000x128) hz]
  funext j
  obtain ⟨p, q, rfl⟩ : ∃ (p : Fin 5000) (q : Fin 128), j = ix2 p q := ⟨j 0, j 1, eq_ix2 j⟩
  rw [View.read_apply]
  have hemb : ((cfg1.win 2).blk t).view.emb (ix2 p q) = ix2 (⟨5000 * t.val + p.val, by omega⟩ : Fin 100000) q := by
    funext a
    apply Fin.ext
    match a with
    | ⟨0, _⟩ => show win1_2.index t 0 * 5000 + 1 * p.val = 5000 * t.val + p.val; rw [e4]; omega
    | ⟨1, _⟩ => show win1_2.index t 1 * 128 + 1 * q.val = q.val; rw [e5]; omega
  rw [hemb, combine_apply]
  show k1_pay1 (iblk1 V c 0 t) (iblk1 V c 1 t) (ix2 p q) = _
  rw [pay_apply, iblk_a V c t p q ⟨5000 * t.val + p.val, by omega⟩ rfl, iblk_b V c t p q ⟨5000 * t.val + p.val, by omega⟩ rfl]
  rfl

theorem mem_blk2 (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v17).slice (win1_2.rect t)).set ↔ _
  rw [View.set_slice_whole, Rect.mem_set_unit]
  exact Iff.rfl

/-- Row `r` of the result lies in the block of point `r / 5000`. -/
theorem cover2 (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 20 := N_1
  obtain ⟨t, htv⟩ : ∃ t : Fin cfg1.N, t.val = (i 0).val / 5000 := ⟨⟨(i 0).val / 5000, by rw [hN]; omega⟩, rfl⟩
  obtain ⟨-, -, -, -, e4, e5⟩ := idx_facts t
  refine ⟨t, flush1_2 t, ?_⟩
  rw [mem_blk2]
  intro a
  match a with
  | ⟨0, _⟩ => show win1_2.index t 0 * 5000 ≤ (i 0).val ∧ (i 0).val < win1_2.index t 0 * 5000 + 5000; rw [e4, htv]; omega
  | ⟨1, _⟩ => show win1_2.index t 1 * 128 ≤ (i 1).val ∧ (i 1).val < win1_2.index t 1 * 128 + 128; rw [e5]; omega

/-- The result array after the call. -/
theorem final2 (c : Dev nD) :
    (dat1 (F := Ideal) V c).arrAt 2 cfg1.N = Net.combine (F := Ideal) (V c main_v6_0) (V c main_v16) :=
  (dat1 (F := Ideal) V c).arrAt_eq_of_cover 2 _ (fun t _ => flushed2 V c t) cover2

end Whole

end Cert.KernelIdeal.Relu1

end
-- ==== Proof.RegRelu3.lean ====
/-
  The second combine call, read as whole arrays: with the self term A and the aggregated neighbour term B, both
  [100000, 128], as the call finds them, its result ends at max (A + B, 0), entry by entry.

  The call walks 20 row blocks of 5000 rows; at block t the body adds the two blocks and clamps below at zero,
  which is the same pointwise function of rows 5000 t … 5000 t + 4999 of A and B. The 20 blocks tile the rows.
-/
import proofs.«119247_j37409165149000_1_alg».proof.Proof.Gen.KernelIdeal.Frame
import proofs.«119247_j37409165149000_1_alg».proof.Proof.Net
import proofs.«119247_j37409165149000_1_alg».proof.Proof.LibPlainDot
import proofs.«119247_j37409165149000_1_alg».proof.Proof.LibHostRows
import Idealize.ShloMosaic.Lib.Pipeline.Value
import Idealize.ShloMosaic.Lib.ValueIdx

set_option maxRecDepth 16384

noncomputable section

namespace Cert.KernelIdeal.Relu3

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Facts₀

theorem hz : (![0, 0] : Fin 2 → Nat) = fun _ => 0 := funext fun a => by fin_cases a <;> rfl

/-- The body's value at an entry: the sum of the two blocks there, clamped below at zero. -/
theorem pay_apply (x0 x1 : Vec Ideal S5000x128 .f32) (j : S5000x128.Idx) :
    k3_pay1 x0 x1 j = max (x0 j + x1 j) (Ideal.ofBits .f32 0x00000000#32) := by
  unfold k3_pay1
  simp only [shapeCast_self]
  rfl

/-- The whole-array combine at an entry. -/
theorem combine_apply (a b : (⟨S100000x128, .f32⟩ : BufTy).Contents (Elt Ideal)) (i : S100000x128.Idx) :
    Net.combine (F := Ideal) a b i = max (a i + b i) (Ideal.ofBits .f32 0x00000000#32) := by
  unfold Net.combine
  show max (a i + b i) (broadcastInDim S100000x128 ![] Facts₀.bcast_S_S100000x128 (constant (F := Ideal) S_ .f32 0x00000000#32) i) = _
  rw [Cert.LibHostRows.broadcastInDim_scalar_apply]
  rfl

/-- The printed index maps over the grid: all three windows sit at row block `t`. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0 :=
  (by decide +kernel : ∀ t : Fin grid3.N, _)

section Whole

variable (V : (c : Dev nD) → (b : Ref sig .tc) → Buf (Elt Ideal) ((c : Thread nD τ).loc b))

/-- Row `p` of the first input's block at point `t` is row `5000 t + p` of that input. -/
theorem iblk_a (c : Dev nD) (t : Fin cfg3.N) (p : Fin 5000) (k : Fin 128) (i : Fin 100000) (hi : i.val = 5000 * t.val + p.val) :
    (iblk3 V c 0 t : Vec Ideal S5000x128 .f32) (ix2 p k) = (V c main_v20_0 : S100000x128.Idx → Elt Ideal .f32) (ix2 i k) := by
  obtain ⟨e0, e1, -⟩ := idx_facts t
  unfold iblk3
  rw [View.read_apply]
  show V c main_v20_0 _ = V c main_v20_0 _
  refine congrArg (V c main_v20_0) ?_
  funext a
  apply Fin.ext
  match a with
  | ⟨0, _⟩ => show win3_0.index t 0 * 5000 + 1 * p.val = i.val; rw [e0, hi]; omega
  | ⟨1, _⟩ => show win3_0.index t 1 * 128 + 1 * k.val = k.val; rw [e1]; omega

theorem iblk_b (c : Dev nD) (t : Fin cfg3.N) (p : Fin 5000) (k : Fin 128) (i : Fin 100000) (hi : i.val = 5000 * t.val + p.val) :
    (iblk3 V c 1 t : Vec Ideal S5000x128 .f32) (ix2 p k) = (V c main_v30 : S100000x128.Idx → Elt Ideal .f32) (ix2 i k) := by
  obtain ⟨-, -, e2, e3, -⟩ := idx_facts t
  unfold iblk3
  rw [View.read_apply]
  show V c main_v30 _ = V c main_v30 _
  refine congrArg (V c main_v30) ?_
  funext a
  apply Fin.ext
  match a with
  | ⟨0, _⟩ => show win3_1.index t 0 * 5000 + 1 * p.val = i.val; rw [e2, hi]; omega
  | ⟨1, _⟩ => show win3_1.index t 1 * 128 + 1 * k.val = k.val; rw [e3]; omega

/-- What point `t` writes back is block `t` of the whole-array combine. -/
theorem flushed2 (c : Dev nD) (t : Fin cfg3.N) :
    (dat3 (F := Ideal) V c).flushed 2 t
      = ((cfg3.win 2).blk t).view.read (Elt Ideal) (Net.combine (F := Ideal) (V c main_v20_0) (V c main_v30)) := by
  have ht : t.val < 20 := lt_of_lt_of_eq t.isLt N_3
  obtain ⟨-, -, -, -, e4, e5⟩ := idx_facts t
  show (cfg3.win 2).cut (grid3.coords t) ((dat3 V c).after 2 t) = _
  rw [after3_2]
  unfold out3_2
  rw [View.canon_unit_zero hz]
  simp only [View.ld_unit_zero (S := S5000x128) hz]
  funext j
  obtain ⟨p, q, rfl⟩ : ∃ (p : Fin 5000) (q : Fin 128), j = ix2 p q := ⟨j 0, j 1, eq_ix2 j⟩
  rw [View.read_apply]
  have hemb : ((cfg3.win 2).blk t).view.emb (ix2 p q) = ix2 (⟨5000 * t.val + p.val, by omega⟩ : Fin 100000) q := by
    funext a
    apply Fin.ext
    match a with
    | ⟨0, _⟩ => show win3_2.index t 0 * 5000 + 1 * p.val = 5000 * t.val + p.val; rw [e4]; omega
    | ⟨1, _⟩ => show win3_2.index t 1 * 128 + 1 * q.val = q.val; rw [e5]; omega
  rw [hemb, combine_apply]
  show k3_pay1 (iblk3 V c 0 t) (iblk3 V c 1 t) (ix2 p q) = _
  rw [pay_apply, iblk_a V c t p q ⟨5000 * t.val + p.val, by omega⟩ rfl, iblk_b V c t p q ⟨5000 * t.val + p.val, by omega⟩ rfl]
  rfl

theorem mem_blk2 (t : Fin cfg3.N) (i : S100000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v31).slice (win3_2.rect t)).set ↔ _
  rw [View.set_slice_whole, Rect.mem_set_unit]
  exact Iff.rfl

/-- Row `r` of the result lies in the block of point `r / 5000`. -/
theorem cover2 (i : S100000x128.Idx) : ∃ t : Fin cfg3.N, (cfg3.win 2).flush t = true ∧ i ∈ ((cfg3.win 2).blk t).view.set := by
  have hi0 : (i 0).val < 100000 := (i 0).isLt
  have hi1 : (i 1).val < 128 := (i 1).isLt
  have hN : cfg3.N = 20 := N_3
  obtain ⟨t, htv⟩ : ∃ t : Fin cfg3.N, t.val = (i 0).val / 5000 := ⟨⟨(i 0).val / 5000, by rw [hN]; omega⟩, rfl⟩
  obtain ⟨-, -, -, -, e4, e5⟩ := idx_facts t
  refine ⟨t, flush3_2 t, ?_⟩
  rw [mem_blk2]
  intro a
  match a with
  | ⟨0, _⟩ => show win3_2.index t 0 * 5000 ≤ (i 0).val ∧ (i 0).val < win3_2.index t 0 * 5000 + 5000; rw [e4, htv]; omega
  | ⟨1, _⟩ => show win3_2.index t 1 * 128 ≤ (i 1).val ∧ (i 1).val < win3_2.index t 1 * 128 + 128; rw [e5]; omega

/-- The result array after the call. -/
theorem final2 (c : Dev nD) :
    (dat3 (F := Ideal) V c).arrAt 2 cfg3.N = Net.combine (F := Ideal) (V c main_v20_0) (V c main_v30) :=
  (dat3 (F := Ideal) V c).arrAt_eq_of_cover 2 _ (fun t _ => flushed2 V c t) cover2

end Whole

end Cert.KernelIdeal.Relu3

end
-- ==== Proof.RegRelu5.lean ====
/-
  The third combine call, read as whole arrays: with the self term A and the aggregated neighbour term B, both
  [100000, 128], as the call finds them, its result ends at max (A + B, 0), entry by entry.

  The call walks 20 row blocks of 5000 rows; at block t the body adds the two blocks and clamps below at zero,
  which is the same pointwise function of rows 5000 t … 5000 t + 4999 of A and B. The 20 blocks tile the rows.
-/
import proofs.«119247_j37409165149000_1_alg».proof.Proof.Gen.KernelIdeal.Frame
import proofs.«119247_j37409165149000_1_alg».proof.Proof.Net
import proofs.«119247_j37409165149000_1_alg».proof.Proof.LibPlainDot
import proofs.«119247_j37409165149000_1_alg».proof.Proof.LibHostRows
import Idealize.ShloMosaic.Lib.Pipeline.Value
import Idealize.ShloMosaic.Lib.ValueIdx

set_option maxRecDepth 16384

noncomputable section

namespace Cert.KernelIdeal.Relu5

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Facts₀

theorem hz : (![0, 0] : Fin 2 → Nat) = fun _ => 0 := funext fun a => by fin_cases a <;> rfl

/-- The body's value at an entry: the sum of the two blocks there, clamped below at zero. -/
theorem pay_apply (x0 x1 : Vec Ideal S5000x128 .f32) (j : S5000x128.Idx) :
    k5_pay1 x0 x1 j = max (x0 j + x1 j) (Ideal.ofBits .f32 0x00000000#32) := by
  unfold k5_pay1
  simp only [shapeCast_self]
  rfl

/-- The whole-array combine at an entry. -/
theorem combine_apply (a b : (⟨S100000x128, .f32⟩ : BufTy).Contents (Elt Ideal)) (i : S100000x128.Idx) :
    Net.combine (F := Ideal) a b i = max (a i + b i) (Ideal.ofBits .f32 0x00000000#32) := by
  unfold Net.combine
  show max (a i + b i) (broadcastInDim S100000x128 ![] Facts₀.bcast_S_S100000x128 (constant (F := Ideal) S_ .f32 0x00000000#32) i) = _
  rw [Cert.LibHostRows.broadcastInDim_scalar_apply]
  rfl

/-- The printed index maps over the grid: all three windows sit at row block `t`. -/
theorem idx_facts : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0 :=
  (by decide +kernel : ∀ t : Fin grid5.N, _)

section Whole

variable (V : (c : Dev nD) → (b : Ref sig .tc) → Buf (Elt Ideal) ((c : Thread nD τ).loc b))

/-- Row `p` of the first input's block at point `t` is row `5000 t + p` of that input. -/
theorem iblk_a (c : Dev nD) (t : Fin cfg5.N) (p : Fin 5000) (k : Fin 128) (i : Fin 100000) (hi : i.val = 5000 * t.val + p.val) :
    (iblk5 V c 0 t : Vec Ideal S5000x128 .f32) (ix2 p k) = (V c main_v34_0 : S100000x128.Idx → Elt Ideal .f32) (ix2 i k) := by
  obtain ⟨e0, e1, -⟩ := idx_facts t
  unfold iblk5
  rw [View.read_apply]
  show V c main_v34_0 _ = V c main_v34_0 _
  refine congrArg (V c main_v34_0) ?_
  funext a
  apply Fin.ext
  match a with
  | ⟨0, _⟩ => show win5_0.index t 0 * 5000 + 1 * p.val = i.val; rw [e0, hi]; omega
  | ⟨1, _⟩ => show win5_0.index t 1 * 128 + 1 * k.val = k.val; rw [e1]; omega

theorem iblk_b (c : Dev nD) (t : Fin cfg5.N) (p : Fin 5000) (k : Fin 128) (i : Fin 100000) (hi : i.val = 5000 * t.val + p.val) :
    (iblk5 V c 1 t : Vec Ideal S5000x128 .f32) (ix2 p k) = (V c main_v44 : S100000x128.Idx → Elt Ideal .f32) (ix2 i k) := by
  obtain ⟨-, -, e2, e3, -⟩ := idx_facts t
  unfold iblk5
  rw [View.read_apply]
  show V c main_v44 _ = V c main_v44 _
  refine congrArg (V c main_v44) ?_
  funext a
  apply Fin.ext
  match a with
  | ⟨0, _⟩ => show win5_1.index t 0 * 5000 + 1 * p.val = i.val; rw [e2, hi]; omega
  | ⟨1, _⟩ => show win5_1.index t 1 * 128 + 1 * k.val = k.val; rw [e3]; omega

/-- What point `t` writes back is block `t` of the whole-array combine. -/
theorem flushed2 (c : Dev nD) (t : Fin cfg5.N) :
    (dat5 (F := Ideal) V c).flushed 2 t
      = ((cfg5.win 2).blk t).view.read (Elt Ideal) (Net.combine (F := Ideal) (V c main_v34_0) (V c main_v44)) := by
  have ht : t.val < 20 := lt_of_lt_of_eq t.isLt N_5
  obtain ⟨-, -, -, -, e4, e5⟩ := idx_facts t
  show (cfg5.win 2).cut (grid5.coords t) ((dat5 V c).after 2 t) = _
  rw [after5_2]
  unfold out5_2
  rw [View.canon_unit_zero hz]
  simp only [View.ld_unit_zero (S := S5000x128) hz]
  funext j
  obtain ⟨p, q, rfl⟩ : ∃ (p : Fin 5000) (q : Fin 128), j = ix2 p q := ⟨j 0, j 1, eq_ix2 j⟩
  rw [View.read_apply]
  have hemb : ((cfg5.win 2).blk t).view.emb (ix2 p q) = ix2 (⟨5000 * t.val + p.val, by omega⟩ : Fin 100000) q := by
    funext a
    apply Fin.ext
    match a with
    | ⟨0, _⟩ => show win5_2.index t 0 * 5000 + 1 * p.val = 5000 * t.val + p.val; rw [e4]; omega
    | ⟨1, _⟩ => show win5_2.index t 1 * 128 + 1 * q.val = q.val; rw [e5]; omega
  rw [hemb, combine_apply]
  show k5_pay1 (iblk5 V c 0 t) (iblk5 V c 1 t) (ix2 p q) = _
  rw [pay_apply, iblk_a V c t p q ⟨5000 * t.val + p.val, by omega⟩ rfl, iblk_b V c t p q ⟨5000 * t.val + p.val, by omega⟩ rfl]
  rfl

theorem mem_blk2 (t : Fin cfg5.N) (i : S100000x128.Idx) :
    i ∈ ((cfg5.win 2).blk t).view.set ↔ ∀ a : Fin 2, win5_2.index t a * S5000x128.size a ≤ (i a).val ∧ (i a).val < win5_2.index t a * S5000x128.size a + S5000x128.size a := by
  show i ∈ ((View.whole main_v45).slice (win5_2.rect t)).set ↔ _
  rw [View.set_slice_whole, Rect.mem_set_unit]
  exact Iff.rfl

/-- Row `r` of the result lies in the block of point `r / 5000`. -/
theorem cover2 (i : S100000x128.Idx) : ∃ t : Fin cfg5.N, (cfg5.win 2).flush t = true ∧ i ∈ ((cfg5.win 2).blk t).view.set := by
  have hi0 : (i 0).val < 100000 := (i 0).isLt
  have hi1 : (i 1).val < 128 := (i 1).isLt
  have hN : cfg5.N = 20 := N_5
  obtain ⟨t, htv⟩ : ∃ t : Fin cfg5.N, t.val = (i 0).val / 5000 := ⟨⟨(i 0).val / 5000, by rw [hN]; omega⟩, rfl⟩
  obtain ⟨-, -, -, -, e4, e5⟩ := idx_facts t
  refine ⟨t, flush5_2 t, ?_⟩
  rw [mem_blk2]
  intro a
  match a with
  | ⟨0, _⟩ => show win5_2.index t 0 * 5000 ≤ (i 0).val ∧ (i 0).val < win5_2.index t 0 * 5000 + 5000; rw [e4, htv]; omega
  | ⟨1, _⟩ => show win5_2.index t 1 * 128 ≤ (i 1).val ∧ (i 1).val < win5_2.index t 1 * 128 + 128; rw [e5]; omega

/-- The result array after the call. -/
theorem final2 (c : Dev nD) :
    (dat5 (F := Ideal) V c).arrAt 2 cfg5.N = Net.combine (F := Ideal) (V c main_v34_0) (V c main_v44) :=
  (dat5 (F := Ideal) V c).arrAt_eq_of_cover 2 _ (fun t _ => flushed2 V c t) cover2

end Whole

end Cert.KernelIdeal.Relu5

end
-- ==== Proof.KVal.lean ====
/-
  The kernel program's result as one function of its arguments: following the buffer contents through @main's
  thirteen segments. Before the first call the host cuts the edge list into its two rows and transposes the first
  layer's weights; each projection call leaves the two plain products of its input features; the aggregation
  stretch gathers the neighbour rows of the second product and adds them into zeros row by row; each combine call
  leaves max (self + aggregate, 0), which is one layer of the network applied to that layer's input; and the last
  stretch is the read-out. Buffers that no later segment writes (the edge rows, the arguments) keep their contents
  from the first boundary on, so every layer sees the same edge rows and its own weights.
-/
import proofs.«119247_j37409165149000_1_alg».proof.Proof.Gen.KernelIdeal.Frame
import proofs.«119247_j37409165149000_1_alg».proof.Proof.Net
import proofs.«119247_j37409165149000_1_alg».proof.Proof.KHost
import proofs.«119247_j37409165149000_1_alg».proof.Proof.RegProj0
import proofs.«119247_j37409165149000_1_alg».proof.Proof.RegProj2
import proofs.«119247_j37409165149000_1_alg».proof.Proof.RegProj4
import proofs.«119247_j37409165149000_1_alg».proof.Proof.RegRelu1
import proofs.«119247_j37409165149000_1_alg».proof.Proof.RegRelu3
import proofs.«119247_j37409165149000_1_alg».proof.Proof.RegRelu5

set_option maxRecDepth 16384

noncomputable section

namespace Cert.KernelIdeal.Whole

open Idealize.ShloMosaic Idealize.ShloMosaic.TcCoe Idealize.SL.Sem
open Cert.KernelIdeal Cert.KernelIdeal.Gen
open Cert.KernelIdeal.HostOps (early late)

variable (m : (ℓ : Loc nD τ sig) → Buf (Elt Ideal) ℓ) (ρ : Dev nD → PrngReg) (c : Dev nD)

/-! ## The arrays of every call are among the late buffers -/

theorem arr0_late : ∀ w : Fin cfg0.W, Pipeline.arrRef spec0 w ∈ late := by decide
theorem arr1_late : ∀ w : Fin cfg1.W, Pipeline.arrRef spec1 w ∈ late := by decide
theorem arr2_late : ∀ w : Fin cfg2.W, Pipeline.arrRef spec2 w ∈ late := by decide
theorem arr3_late : ∀ w : Fin cfg3.W, Pipeline.arrRef spec3 w ∈ late := by decide
theorem arr4_late : ∀ w : Fin cfg4.W, Pipeline.arrRef spec4 w ∈ late := by decide
theorem arr5_late : ∀ w : Fin cfg5.W, Pipeline.arrRef spec5 w ∈ late := by decide

/-! ## A buffer no segment after the first writes holds, at every later boundary, what it held at the first -/

theorem keep2 (b : Ref sig .tc) (hb : b ∉ late) : W2 m ρ c (Proc.devRef .tc b) = W1 m ρ c (Proc.devRef .tc b) :=
  W2_of_ne m ρ c b fun w e => hb (by rw [← e]; exact arr0_late w)
theorem keep3 (b : Ref sig .tc) (hb : b ∉ late) : W3 m ρ c (Proc.devRef .tc b) = W1 m ρ c (Proc.devRef .tc b) :=
  (HostOps.host1_keep (F := Ideal) (W2 m ρ c) b hb).trans (keep2 m ρ c b hb)
theorem keep4 (b : Ref sig .tc) (hb : b ∉ late) : W4 m ρ c (Proc.devRef .tc b) = W1 m ρ c (Proc.devRef .tc b) :=
  (W4_of_ne m ρ c b fun w e => hb (by rw [← e]; exact arr1_late w)).trans (keep3 m ρ c b hb)
theorem keep5 (b : Ref sig .tc) (hb : b ∉ late) : W5 m ρ c (Proc.devRef .tc b) = W1 m ρ c (Proc.devRef .tc b) :=
  (HostOps.host2_keep (F := Ideal) (W4 m ρ c) b hb).trans (keep4 m ρ c b hb)
theorem keep6 (b : Ref sig .tc) (hb : b ∉ late) : W6 m ρ c (Proc.devRef .tc b) = W1 m ρ c (Proc.devRef .tc b) :=
  (W6_of_ne m ρ c b fun w e => hb (by rw [← e]; exact arr2_late w)).trans (keep5 m ρ c b hb)
theorem keep7 (b : Ref sig .tc) (hb : b ∉ late) : W7 m ρ c (Proc.devRef .tc b) = W1 m ρ c (Proc.devRef .tc b) :=
  (HostOps.host3_keep (F := Ideal) (W6 m ρ c) b hb).trans (keep6 m ρ c b hb)
theorem keep8 (b : Ref sig .tc) (hb : b ∉ late) : W8 m ρ c (Proc.devRef .tc b) = W1 m ρ c (Proc.devRef .tc b) :=
  (W8_of_ne m ρ c b fun w e => hb (by rw [← e]; exact arr3_late w)).trans (keep7 m ρ c b hb)
theorem keep9 (b : Ref sig .tc) (hb : b ∉ late) : W9 m ρ c (Proc.devRef .tc b) = W1 m ρ c (Proc.devRef .tc b) :=
  (HostOps.host4_keep (F := Ideal) (W8 m ρ c) b hb).trans (keep8 m ρ c b hb)
theorem keep10 (b : Ref sig .tc) (hb : b ∉ late) : W10 m ρ c (Proc.devRef .tc b) = W1 m ρ c (Proc.devRef .tc b) :=
  (W10_of_ne m ρ c b fun w e => hb (by rw [← e]; exact arr4_late w)).trans (keep9 m ρ c b hb)
theorem keep11 (b : Ref sig .tc) (hb : b ∉ late) : W11 m ρ c (Proc.devRef .tc b) = W1 m ρ c (Proc.devRef .tc b) :=
  (HostOps.host5_keep (F := Ideal) (W10 m ρ c) b hb).trans (keep10 m ρ c b hb)
theorem keep12 (b : Ref sig .tc) (hb : b ∉ late) : W12 m ρ c (Proc.devRef .tc b) = W1 m ρ c (Proc.devRef .tc b) :=
  (W12_of_ne m ρ c b fun w e => hb (by rw [← e]; exact arr5_late w)).trans (keep11 m ρ c b hb)

/-! ## The first boundary: the edge rows, the first layer's transposed weights, the arguments -/

theorem W1_keep (b : Ref sig .tc) (hb : b ∉ early) : W1 m ρ c (Proc.devRef .tc b) = m ((c.tc : Thread nD τ).loc b) :=
  HostOps.host0_keep (F := Ideal) (W0 m ρ c) b hb
theorem W1_v1 : W1 m ρ c (Proc.devRef .tc main_v1) = Net.rowVec (m ((c.tc : Thread nD τ).loc main_arg1)) := HostOps.host0_v1 (F := Ideal) (W0 m ρ c)
theorem W1_v3 : W1 m ρ c (Proc.devRef .tc main_v3) = Net.colVec (m ((c.tc : Thread nD τ).loc main_arg1)) := HostOps.host0_v3 (F := Ideal) (W0 m ρ c)
theorem W1_v4 : W1 m ρ c (Proc.devRef .tc main_v4) = Net.wT (m ((c.tc : Thread nD τ).loc main_arg3)) := HostOps.host0_v4 (F := Ideal) (W0 m ρ c)
theorem W1_v5 : W1 m ρ c (Proc.devRef .tc main_v5) = Net.wT (m ((c.tc : Thread nD τ).loc main_arg4)) := HostOps.host0_v5 (F := Ideal) (W0 m ρ c)

/-! ## The layers' outputs -/

/-- The edge rows. -/
abbrev row := Net.rowVec (F := Ideal) (m ((c.tc : Thread nD τ).loc main_arg1))
abbrev col := Net.colVec (F := Ideal) (m ((c.tc : Thread nD τ).loc main_arg1))
/-- The features after one, two and three rounds of message passing. -/
abbrev h1 := Net.layer (F := Ideal) (m ((c.tc : Thread nD τ).loc main_arg0)) (row m c) (col m c) (Net.wT (m ((c.tc : Thread nD τ).loc main_arg3))) (Net.wT (m ((c.tc : Thread nD τ).loc main_arg4)))
abbrev h2 := Net.layer (F := Ideal) (h1 m c) (row m c) (col m c) (Net.wT (m ((c.tc : Thread nD τ).loc main_arg5))) (Net.wT (m ((c.tc : Thread nD τ).loc main_arg6)))
abbrev h3 := Net.layer (F := Ideal) (h2 m c) (row m c) (col m c) (Net.wT (m ((c.tc : Thread nD τ).loc main_arg7))) (Net.wT (m ((c.tc : Thread nD τ).loc main_arg8)))

/-! ### Layer 1 -/

theorem W2_v6_0 : W2 m ρ c (Proc.devRef .tc main_v6_0) = Net.proj (F := Ideal) (m ((c.tc : Thread nD τ).loc main_arg0)) (Net.wT (m ((c.tc : Thread nD τ).loc main_arg3))) :=
  (W2_arr m ρ c 3).trans ((Proj0.final3 (V1 m ρ) c).trans (by
    show Net.proj (W1 m ρ c (Proc.devRef .tc main_arg0)) (W1 m ρ c (Proc.devRef .tc main_v4)) = _
    rw [W1_keep m ρ c main_arg0 (by decide), W1_v4]))
theorem W2_v6_1 : W2 m ρ c (Proc.devRef .tc main_v6_1) = Net.proj (F := Ideal) (m ((c.tc : Thread nD τ).loc main_arg0)) (Net.wT (m ((c.tc : Thread nD τ).loc main_arg4))) :=
  (W2_arr m ρ c 4).trans ((Proj0.final4 (V1 m ρ) c).trans (by
    show Net.proj (W1 m ρ c (Proc.devRef .tc main_arg0)) (W1 m ρ c (Proc.devRef .tc main_v5)) = _
    rw [W1_keep m ρ c main_arg0 (by decide), W1_v5]))
theorem W3_v6_0 : W3 m ρ c (Proc.devRef .tc main_v6_0) = Net.proj (F := Ideal) (m ((c.tc : Thread nD τ).loc main_arg0)) (Net.wT (m ((c.tc : Thread nD τ).loc main_arg3))) :=
  (HostOps.host1_v6_0 (F := Ideal) (W2 m ρ c)).trans (W2_v6_0 m ρ c)
theorem W3_v16 : W3 m ρ c (Proc.devRef .tc main_v16)
    = Net.aggr (F := Ideal) (Net.proj (m ((c.tc : Thread nD τ).loc main_arg0)) (Net.wT (m ((c.tc : Thread nD τ).loc main_arg4)))) (row m c) (col m c) :=
  (HostOps.host1_v16 (F := Ideal) (W2 m ρ c)).trans (by
    rw [W2_v6_1, keep2 m ρ c main_v1 (by decide), W1_v1, keep2 m ρ c main_v3 (by decide), W1_v3])
theorem W4_v17 : W4 m ρ c (Proc.devRef .tc main_v17) = h1 m c :=
  (W4_arr m ρ c 2).trans ((Relu1.final2 (V3 m ρ) c).trans (by
    show Net.combine (W3 m ρ c (Proc.devRef .tc main_v6_0)) (W3 m ρ c (Proc.devRef .tc main_v16)) = _
    rw [W3_v6_0, W3_v16]
    rfl))

/-! ### Layer 2 -/

theorem W5_v17 : W5 m ρ c (Proc.devRef .tc main_v17) = h1 m c :=
  (HostOps.host2_v17 (F := Ideal) (W4 m ρ c)).trans (W4_v17 m ρ c)
theorem W5_v18 : W5 m ρ c (Proc.devRef .tc main_v18) = Net.wT (m ((c.tc : Thread nD τ).loc main_arg5)) :=
  (HostOps.host2_v18 (F := Ideal) (W4 m ρ c)).trans (by
    rw [keep4 m ρ c main_arg5 (by decide), W1_keep m ρ c main_arg5 (by decide)])
theorem W5_v19 : W5 m ρ c (Proc.devRef .tc main_v19) = Net.wT (m ((c.tc : Thread nD τ).loc main_arg6)) :=
  (HostOps.host2_v19 (F := Ideal) (W4 m ρ c)).trans (by
    rw [keep4 m ρ c main_arg6 (by decide), W1_keep m ρ c main_arg6 (by decide)])
theorem W6_v20_0 : W6 m ρ c (Proc.devRef .tc main_v20_0) = Net.proj (F := Ideal) (h1 m c) (Net.wT (m ((c.tc : Thread nD τ).loc main_arg5))) :=
  (W6_arr m ρ c 3).trans ((Proj2.final3 (V5 m ρ) c).trans (by
    show Net.proj (W5 m ρ c (Proc.devRef .tc main_v17)) (W5 m ρ c (Proc.devRef .tc main_v18)) = _
    rw [W5_v17, W5_v18]))
theorem W6_v20_1 : W6 m ρ c (Proc.devRef .tc main_v20_1) = Net.proj (F := Ideal) (h1 m c) (Net.wT (m ((c.tc : Thread nD τ).loc main_arg6))) :=
  (W6_arr m ρ c 4).trans ((Proj2.final4 (V5 m ρ) c).trans (by
    show Net.proj (W5 m ρ c (Proc.devRef .tc main_v17)) (W5 m ρ c (Proc.devRef .tc main_v19)) = _
    rw [W5_v17, W5_v19]))
theorem W7_v20_0 : W7 m ρ c (Proc.devRef .tc main_v20_0) = Net.proj (F := Ideal) (h1 m c) (Net.wT (m ((c.tc : Thread nD τ).loc main_arg5))) :=
  (HostOps.host3_v20_0 (F := Ideal) (W6 m ρ c)).trans (W6_v20_0 m ρ c)
theorem W7_v30 : W7 m ρ c (Proc.devRef .tc main_v30)
    = Net.aggr (F := Ideal) (Net.proj (h1 m c) (Net.wT (m ((c.tc : Thread nD τ).loc main_arg6)))) (row m c) (col m c) :=
  (HostOps.host3_v30 (F := Ideal) (W6 m ρ c)).trans (by
    rw [W6_v20_1, keep6 m ρ c main_v1 (by decide), W1_v1, keep6 m ρ c main_v3 (by decide), W1_v3])
theorem W8_v31 : W8 m ρ c (Proc.devRef .tc main_v31) = h2 m c :=
  (W8_arr m ρ c 2).trans ((Relu3.final2 (V7 m ρ) c).trans (by
    show Net.combine (W7 m ρ c (Proc.devRef .tc main_v20_0)) (W7 m ρ c (Proc.devRef .tc main_v30)) = _
    rw [W7_v20_0, W7_v30]
    rfl))

/-! ### Layer 3 -/

theorem W9_v31 : W9 m ρ c (Proc.devRef .tc main_v31) = h2 m c :=
  (HostOps.host4_v31 (F := Ideal) (W8 m ρ c)).trans (W8_v31 m ρ c)
theorem W9_v32 : W9 m ρ c (Proc.devRef .tc main_v32) = Net.wT (m ((c.tc : Thread nD τ).loc main_arg7)) :=
  (HostOps.host4_v32 (F := Ideal) (W8 m ρ c)).trans (by
    rw [keep8 m ρ c main_arg7 (by decide), W1_keep m ρ c main_arg7 (by decide)])
theorem W9_v33 : W9 m ρ c (Proc.devRef .tc main_v33) = Net.wT (m ((c.tc : Thread nD τ).loc main_arg8)) :=
  (HostOps.host4_v33 (F := Ideal) (W8 m ρ c)).trans (by
    rw [keep8 m ρ c main_arg8 (by decide), W1_keep m ρ c main_arg8 (by decide)])
theorem W10_v34_0 : W10 m ρ c (Proc.devRef .tc main_v34_0) = Net.proj (F := Ideal) (h2 m c) (Net.wT (m ((c.tc : Thread nD τ).loc main_arg7))) :=
  (W10_arr m ρ c 3).trans ((Proj4.final3 (V9 m ρ) c).trans (by
    show Net.proj (W9 m ρ c (Proc.devRef .tc main_v31)) (W9 m ρ c (Proc.devRef .tc main_v32)) = _
    rw [W9_v31, W9_v32]))
theorem W10_v34_1 : W10 m ρ c (Proc.devRef .tc main_v34_1) = Net.proj (F := Ideal) (h2 m c) (Net.wT (m ((c.tc : Thread nD τ).loc main_arg8))) :=
  (W10_arr m ρ c 4).trans ((Proj4.final4 (V9 m ρ) c).trans (by
    show Net.proj (W9 m ρ c (Proc.devRef .tc main_v31)) (W9 m ρ c (Proc.devRef .tc main_v33)) = _
    rw [W9_v31, W9_v33]))
theorem W11_v34_0 : W11 m ρ c (Proc.devRef .tc main_v34_0) = Net.proj (F := Ideal) (h2 m c) (Net.wT (m ((c.tc : Thread nD τ).loc main_arg7))) :=
  (HostOps.host5_v34_0 (F := Ideal) (W10 m ρ c)).trans (W10_v34_0 m ρ c)
theorem W11_v44 : W11 m ρ c (Proc.devRef .tc main_v44)
    = Net.aggr (F := Ideal) (Net.proj (h2 m c) (Net.wT (m ((c.tc : Thread nD τ).loc main_arg8)))) (row m c) (col m c) :=
  (HostOps.host5_v44 (F := Ideal) (W10 m ρ c)).trans (by
    rw [W10_v34_1, keep10 m ρ c main_v1 (by decide), W1_v1, keep10 m ρ c main_v3 (by decide), W1_v3])
theorem W12_v45 : W12 m ρ c (Proc.devRef .tc main_v45) = h3 m c :=
  (W12_arr m ρ c 2).trans ((Relu5.final2 (V11 m ρ) c).trans (by
    show Net.combine (W11 m ρ c (Proc.devRef .tc main_v34_0)) (W11 m ρ c (Proc.devRef .tc main_v44)) = _
    rw [W11_v34_0, W11_v44]
    rfl))

/-! ## The result -/

/-- The result buffer after the last stretch is the network of the arguments. -/
theorem result_eq : W13 m ρ c (Proc.devRef .tc main_v62)
    = Net.net (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) :=
  (HostOps.host6_v62 (F := Ideal) (W12 m ρ c)).trans (by
    rw [W12_v45, keep12 m ρ c main_arg2 (by decide), W1_keep m ρ c main_arg2 (by decide),
      keep12 m ρ c main_arg9 (by decide), W1_keep m ρ c main_arg9 (by decide),
      keep12 m ρ c main_arg10 (by decide), W1_keep m ρ c main_arg10 (by decide)]
    rfl)

end Cert.KernelIdeal.Whole

end
-- ==== Proof.RefNet.lean ====
/-
  The same network as one composition of whole-array operations, spelt over the reference program's own shapes
  and dimension records (three rounds of: self projection + aggregated neighbour projection, clamped at zero; then
  the per-graph mean and the linear read-out), and the reference's run read as that composition.
-/
import proofs.«119247_j37409165149000_1_alg».proof.Proof.Gen.ReferenceIdeal
import Idealize.ShloMosaic.PureOps.Ideal

noncomputable section

namespace Cert.ReferenceIdeal.Net

open Idealize.ShloMosaic Cert.ReferenceIdeal Cert.ReferenceIdeal.Facts₀ Cert.ReferenceIdeal.Facts

variable {F : FTy → Type} [FloatOps F]

/-- Row `k` of the edge list as a vector of 625000 node numbers. -/
def rowVec (ei : (⟨S2x625000, .i32⟩ : BufTy).Contents (Elt F)) : (⟨S625000, .i32⟩ : BufTy).Contents (Elt F) :=
  shapeCast S625000 (extractStridedSlice S1x625000 ![0, 0] ei slices_S2x625000_S1x625000_0_0) shapeCasts_S1x625000_S625000

def colVec (ei : (⟨S2x625000, .i32⟩ : BufTy).Contents (Elt F)) : (⟨S625000, .i32⟩ : BufTy).Contents (Elt F) :=
  shapeCast S625000 (extractStridedSlice S1x625000 ![1, 0] ei slices_S2x625000_S1x625000_1_0) shapeCasts_S1x625000_S625000

/-- A weight matrix stored [out, in], turned to [in, out]. -/
def wT (w : (⟨S128x128, .f32⟩ : BufTy).Contents (Elt F)) : (⟨S128x128, .f32⟩ : BufTy).Contents (Elt F) :=
  transpose S128x128 [1, 0] w transposes_S128x128_S128x128_1_0

/-- The plain product of the node features with a [in, out] weight matrix. -/
def proj (h : (⟨S100000x128, .f32⟩ : BufTy).Contents (Elt F)) (w : (⟨S128x128, .f32⟩ : BufTy).Contents (Elt F)) :
    (⟨S100000x128, .f32⟩ : BufTy).Contents (Elt F) :=
  Host.dotGeneral dot_S100000x128_S128x128_S100000x128_1_0_0_1_n_n none h w

/-- Neighbour aggregation: row `r` of the result is the sum of the rows `p[col e]` over the edges `e` with `row e = r`. -/
def aggr (p : (⟨S100000x128, .f32⟩ : BufTy).Contents (Elt F)) (row col : (⟨S625000, .i32⟩ : BufTy).Contents (Elt F)) :
    (⟨S100000x128, .f32⟩ : BufTy).Contents (Elt F) :=
  Host.scatterAdd scatter_S100000x128_S625000x1_S625000x128_1_0_0_1
    (broadcastInDim S100000x128 ![] bcast_S_S100000x128 (constant S_ .f32 0x00000000#32))
    (broadcastInDim S625000x1 ![0] bcast_S625000_S625000x1_0 row)
    (Host.gather gather_S100000x128_S625000x1_S625000x128_1_0_n_n_0_1_1128 p
      (broadcastInDim S625000x1 ![0] bcast_S625000_S625000x1_0
        (select (cmpi .slt col (broadcastInDim S625000 ![] bcast_S_S625000 (constantI S_ 32 0#32)))
          (addi col (broadcastInDim S625000 ![] bcast_S_S625000 (constantI S_ 32 100000#32))) col)))

/-- The self term plus the aggregated neighbour term, clamped below at zero. -/
def combine (a b : (⟨S100000x128, .f32⟩ : BufTy).Contents (Elt F)) : (⟨S100000x128, .f32⟩ : BufTy).Contents (Elt F) :=
  maximumf (addf a b) (broadcastInDim S100000x128 ![] bcast_S_S100000x128 (constant S_ .f32 0x00000000#32))

/-- One round of message passing. -/
def layer (h : (⟨S100000x128, .f32⟩ : BufTy).Contents (Elt F)) (row col : (⟨S625000, .i32⟩ : BufTy).Contents (Elt F))
    (w1 w2 : (⟨S128x128, .f32⟩ : BufTy).Contents (Elt F)) : (⟨S100000x128, .f32⟩ : BufTy).Contents (Elt F) :=
  combine (proj h w1) (aggr (proj h w2) row col)

/-- Mean of the node features over each graph, then the linear read-out. -/
def pool (h : (⟨S100000x128, .f32⟩ : BufTy).Contents (Elt F)) (batch : (⟨S100000, .i32⟩ : BufTy).Contents (Elt F))
    (wc : (⟨S10x128, .f32⟩ : BufTy).Contents (Elt F)) (bc : (⟨S10, .f32⟩ : BufTy).Contents (Elt F)) :
    (⟨S256x10, .f32⟩ : BufTy).Contents (Elt F) :=
  addf
    (Host.dotGeneral dot_S256x128_S128x10_S256x10_1_0_0_1_n_n none
      (Host.divf
        (Host.scatterAdd scatter_S256x128_S100000x1_S100000x128_1_0_0_1
          (broadcastInDim S256x128 ![] bcast_S_S256x128 (constant S_ .f32 0x00000000#32))
          (broadcastInDim S100000x1 ![0] bcast_S100000_S100000x1_0 batch) h)
        (broadcastInDim S256x128 ![0, 1] bcast_S256x1_S256x128_0_1
          (broadcastInDim S256x1 ![0] bcast_S256_S256x1_0
            (maximumf
              (Host.scatterAdd scatter_S256_S100000x1_S100000_n_0_0_1
                (broadcastInDim S256 ![] bcast_S_S256 (constant S_ .f32 0x00000000#32))
                (broadcastInDim S100000x1 ![0] bcast_S100000_S100000x1_0 batch)
                (broadcastInDim S100000 ![] bcast_S_S100000 (constant S_ .f32 0x3F800000#32)))
              (broadcastInDim S256 ![] bcast_S_S256 (constant S_ .f32 0x3F800000#32))))))
      (transpose S128x10 [1, 0] wc transposes_S10x128_S128x10_1_0))
    (broadcastInDim S256x10 ![0, 1] bcast_S1x10_S256x10_0_1 (broadcastInDim S1x10 ![1] bcast_S10_S1x10_1 bc))

/-- The whole network. -/
def net (x : (⟨S100000x128, .f32⟩ : BufTy).Contents (Elt F)) (ei : (⟨S2x625000, .i32⟩ : BufTy).Contents (Elt F))
    (batch : (⟨S100000, .i32⟩ : BufTy).Contents (Elt F))
    (w10 w20 w11 w21 w12 w22 : (⟨S128x128, .f32⟩ : BufTy).Contents (Elt F))
    (wc : (⟨S10x128, .f32⟩ : BufTy).Contents (Elt F)) (bc : (⟨S10, .f32⟩ : BufTy).Contents (Elt F)) :
    (⟨S256x10, .f32⟩ : BufTy).Contents (Elt F) :=
  pool (layer (layer (layer x (rowVec ei) (colVec ei) (wT w10) (wT w20)) (rowVec ei) (colVec ei) (wT w11) (wT w21))
    (rowVec ei) (colVec ei) (wT w12) (wT w22)) batch wc bc

end Cert.ReferenceIdeal.Net

end
-- ==== Proof.RefValue.lean ====
/-
  The reference program's result is the network applied to its arguments: the run's composed term, in which each
  layer's output is written out at every place it is used, is the nested composition layer ∘ layer ∘ layer
  followed by the read-out, operation for operation.
-/
import proofs.«119247_j37409165149000_1_alg».proof.Proof.Gen.ReferenceIdeal.Run
import proofs.«119247_j37409165149000_1_alg».proof.Proof.RefNet

set_option maxRecDepth 16384

noncomputable section

namespace Cert.ReferenceIdeal.RefValue

open Idealize.ShloMosaic Idealize.ShloMosaic.TcCoe Idealize.SL.Sem
open Cert.ReferenceIdeal Cert.ReferenceIdeal.Gen

variable {F : FTy → Type} [FloatOps F]

set_option maxHeartbeats 4000000 in
theorem result_eq (m : (ℓ : Loc nD τ sig) → Buf (Elt F) ℓ) (c : Dev nD) :
    Cert.ReferenceIdeal.Value.res_main_v68 m c
      = Net.net (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) := by
  unfold Cert.ReferenceIdeal.Value.res_main_v68
  rfl

end Cert.ReferenceIdeal.RefValue

end
-- ==== Proof.Bridge.lean ====
/-
  The network spelt over the kernel program's shapes and dimension records and the network spelt over the
  reference program's are one function: the two programs print the same shapes, slices, transpositions, gather,
  scatter and product dimensions under their own names, and the plain product's dimensions are the reference's
  printed record for a [100000, 128] by [128, 128] product.
-/
import proofs.«119247_j37409165149000_1_alg».proof.Proof.Net
import proofs.«119247_j37409165149000_1_alg».proof.Proof.RefNet

set_option maxRecDepth 16384

noncomputable section

namespace Cert.Bridge

open Idealize.ShloMosaic

variable {F : FTy → Type} [FloatOps F]

theorem net_eq (x : (⟨Cert.KernelIdeal.S100000x128, .f32⟩ : BufTy).Contents (Elt F))
    (ei : (⟨Cert.KernelIdeal.S2x625000, .i32⟩ : BufTy).Contents (Elt F))
    (batch : (⟨Cert.KernelIdeal.S100000, .i32⟩ : BufTy).Contents (Elt F))
    (w10 w20 w11 w21 w12 w22 : (⟨Cert.KernelIdeal.S128x128, .f32⟩ : BufTy).Contents (Elt F))
    (wc : (⟨Cert.KernelIdeal.S10x128, .f32⟩ : BufTy).Contents (Elt F)) (bc : (⟨Cert.KernelIdeal.S10, .f32⟩ : BufTy).Contents (Elt F)) :
    Cert.KernelIdeal.Net.net x ei batch w10 w20 w11 w21 w12 w22 wc bc
      = Cert.ReferenceIdeal.Net.net x ei batch w10 w20 w11 w21 w12 w22 wc bc := rfl

end Cert.Bridge

end
-- ==== Proof.lean ====
/-
  Three rounds of graph message passing, a per-graph mean and a linear read-out: the tiled kernel program against
  the plain jnp reference, equal as extended reals.

  Both programs compute, per round, max (h · W1ᵀ + A (h · W2ᵀ), 0) where A sums the rows of its argument over each
  node's incoming edges (a gather of rows followed by a scatter-add into zeros). The kernel program computes the two
  products in a call tiled over 20 blocks of 5000 rows, with operands rounded to bf16 — the identity over the
  extended reals — and the sum-and-clamp in a second tiled call; the gather, the scatter-add and the read-out are
  the same host operations in both programs. So block t of each call's result is block t of the whole-array
  operation, the blocks tile the rows, and the two programs' results are the same composition of whole-array
  operations of the arguments. No law of arithmetic is used beyond reading a matrix product as the sum over the
  contracted coordinate on both sides, so finiteness of the inputs is never needed.

  The ideal pass rewrote nothing, so the preservation claim is trivial; the kernel programs' frames are the
  generated ones; the reference's frame is its run with the result dropped.
-/
import proofs.«119247_j37409165149000_1_alg».proof.Defs
import proofs.«119247_j37409165149000_1_alg».proof.Proof.Gen.Kernel
import proofs.«119247_j37409165149000_1_alg».proof.Proof.Gen.Kernel.Frame
import proofs.«119247_j37409165149000_1_alg».proof.Proof.Gen.KernelIdeal
import proofs.«119247_j37409165149000_1_alg».proof.Proof.Gen.KernelIdeal.Frame
import proofs.«119247_j37409165149000_1_alg».proof.Proof.Gen.ReferenceIdeal
import proofs.«119247_j37409165149000_1_alg».proof.Proof.Gen.Pre_finite_inputs
import proofs.«119247_j37409165149000_1_alg».proof.Proof.Gen.ReferenceIdeal.Run
import proofs.«119247_j37409165149000_1_alg».proof.Proof.KRun
import proofs.«119247_j37409165149000_1_alg».proof.Proof.KVal
import proofs.«119247_j37409165149000_1_alg».proof.Proof.RefValue
import proofs.«119247_j37409165149000_1_alg».proof.Proof.Bridge

set_option maxRecDepth 16384

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end with the network of the arguments in their result buffer. -/
theorem algebraic : Cert.algebraic_KernelIdeal_ReferenceIdeal := by
  intro m ρ m' ρ' _ hagree
  refine ⟨fun c => Cert.KernelIdeal.Net.net (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))
      (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.Whole.result_eq m ρ c), (h c).2⟩)
      (Cert.KernelIdeal.Whole.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7, a8, a9, a10⟩ := hagree c
    rw [Cert.ReferenceIdeal.RefValue.result_eq, a0, a1, a2, a3, a4, a5, a6, a7, a8, a9, a10]
    exact (Cert.Bridge.net_eq _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
